-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x40 : Shape := ⟨2, ![1, 40]⟩
abbrev S100000x40 : Shape := ⟨2, ![100000, 40]⟩
abbrev S10000x40 : Shape := ⟨2, ![10000, 40]⟩
abbrev S1700000x40 : Shape := ⟨2, ![1700000, 40]⟩
abbrev S10000 : Shape := ⟨1, ![10000]⟩
abbrev S10000x1 : Shape := ⟨2, ![10000, 1]⟩

abbrev nBuf : Space → Nat
  | .hbm => 78
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S1x64, .f32⟩
  | .hbm, ⟨42, _⟩ => ⟨S100000x64, .f32⟩
  | .hbm, ⟨43, _⟩ => ⟨S1700000x1, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x40, .f32⟩
  | .hbm, ⟨60, _⟩ => ⟨S100000x40, .f32⟩
  | .hbm, ⟨61, _⟩ => ⟨S1700000x1, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x40, .f32⟩
  | .hbm, ⟨71, _⟩ => ⟨S1700000x40, .f32⟩
  | .hbm, ⟨72, _⟩ => ⟨S1700000x40, .f32⟩
  | .hbm, ⟨73, _⟩ => ⟨S_, .f32⟩
  | .hbm, ⟨74, _⟩ => ⟨S100000x40, .f32⟩
  | .hbm, ⟨75, _⟩ => ⟨S1700000x1, .i32⟩
  | .hbm, ⟨76, _⟩ => ⟨S100000x40, .f32⟩
  | .hbm, ⟨77, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x40, .f32⟩
  | .local _ .vmem, ⟨9, _⟩ => ⟨S1x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S40_S1x40 : S40.ShapeCasts S1x40
  shapeCasts_S10000x64_S10000x64 : S10000x64.ShapeCasts S10000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S100000x40.size a
  hwx2_1 : ∀ i : grid2.Coords, EltTy.bits .f32 = 32 ∨ (Rect.block (s := S100000x40) S10000x40.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S10000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S1x64 : Shape := ⟨2, ![1, 64]⟩
abbrev S_ : Shape := ⟨0, ![]⟩
abbrev S1700000x1 : Shape := ⟨2, ![1700000, 1]⟩
abbrev S1700000x64 : Shape := ⟨2, ![1700000, 64]⟩
abbrev S100000x40 : Shape := ⟨2, ![100000, 40]⟩
abbrev S1x40 : Shape := ⟨2, ![1, 40]⟩
abbrev S1700000x40 : Shape := ⟨2, ![1700000, 40]⟩
abbrev S100000x1 : Shape := ⟨2, ![100000, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S1x64, .f32⟩
  | .hbm, ⟨15, _⟩ => ⟨S100000x64, .f32⟩
  | .hbm, ⟨16, _⟩ => ⟨S100000x64, .f32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S1700000x1, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x40, .f32⟩
  | .hbm, ⟨65, _⟩ => ⟨S1x40, .f32⟩
  | .hbm, ⟨66, _⟩ => ⟨S100000x40, .f32⟩
  | .hbm, ⟨67, _⟩ => ⟨S100000x40, .f32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S1700000, .f32⟩
  | .hbm, ⟨96, _⟩ => ⟨S1700000x1, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x40, .f32⟩
  | .hbm, ⟨106, _⟩ => ⟨S1700000x40, .f32⟩
  | .hbm, ⟨107, _⟩ => ⟨S1700000x40, .f32⟩
  | .hbm, ⟨108, _⟩ => ⟨S_, .f32⟩
  | .hbm, ⟨109, _⟩ => ⟨S100000x40, .f32⟩
  | .hbm, ⟨110, _⟩ => ⟨S1700000x1, .i32⟩
  | .hbm, ⟨111, _⟩ => ⟨S100000x40, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S100000, .f32⟩
  | .hbm, ⟨116, _⟩ => ⟨S100000, .f32⟩
  | .hbm, ⟨117, _⟩ => ⟨S100000x1, .f32⟩
  | .hbm, ⟨118, _⟩ => ⟨S100000x40, .f32⟩
  | .hbm, ⟨119, _⟩ => ⟨S100000x40, .f32⟩
  | .hbm, ⟨120, _⟩ => ⟨S100000x40, .f32⟩
  | .hbm, ⟨121, _⟩ => ⟨S_, .f32⟩
  | .hbm, ⟨122, _⟩ => ⟨S100000, .f32⟩
  | .hbm, ⟨123, _⟩ => ⟨S100000x1, .f32⟩
  | .hbm, ⟨124, _⟩ => ⟨S100000x1, .f32⟩
  | .hbm, ⟨125, _⟩ => ⟨S100000x40, .f32⟩
  | .hbm, ⟨126, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_cst : Ref sig .tc := ⟨.hbm, 61, rfl⟩
abbrev main_call0_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_call1_cst_0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_cst_1 : Ref sig .tc := ⟨.hbm, 121, rfl⟩
abbrev main_call1_v7 : Ref sig .tc := ⟨.hbm, 122, rfl⟩
abbrev main_call1_v8 : Ref sig .tc := ⟨.hbm, 123, rfl⟩
abbrev main_call1_v9 : Ref sig .tc := ⟨.hbm, 124, rfl⟩
abbrev main_call1_v10 : Ref sig .tc := ⟨.hbm, 125, rfl⟩
abbrev main_v84 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KRun.lean ====
/-
  The idealized kernel program's run with its RESULT named.  The program is six segments — host
  operations, the first dense kernel, host operations, the second dense kernel, host operations, the
  log-softmax kernel — and the buffer contents at each boundary are a fold from the launch memory
  (`W0 … W6` of the frame module).  Every weakly fair execution terminates with every unscoped buffer at
  the last boundary's contents `W6`; read at the result buffer this names the result, and read at the six
  argument buffers it gives them back unchanged.
-/
import proofs.«115427_j1846835937364_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six arguments as launched. -/
theorem run_out : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.Spec.lean ====
/-
  The mathematics of the two-layer graph convolution, stated once, for both programs.

  Nodes are rows. From the edge list `e` (two rows of 1 600 000 node numbers) the program forms the
  source and destination lists `srcOf e`, `dstOf e` (the edges followed by one self-loop per node), the
  degree of every node as a scatter-add of ones along the sources, `dinv = deg ^ (-1/2)`, and the edge
  weight `normOf = dinv[src] · dinv[dst]` (negative node numbers wrapped by the node count before each
  gather).  A layer's aggregation `agg h` gathers the rows of `h` at the sources, scales each by its edge
  weight and scatter-adds them at the destinations.  These host steps are the same text in both
  programs; they are kept as whole-array functions and never opened.

  What differs between the programs is how the three dense steps are computed, and those are stated
  index by index on the extended reals:
    `lin x W b (r, j)      = (∑ k, x (r, k) · W (k, j)) + b j`
    `reluLin a W b (r, j)  = (∑ k, max (a (r, k)) 0 · W (k, j)) + b j`
    `logSoftmax a (r, j)   = (a (r, j) − M r) − log (∑ k, exp (a (r, k) − M r))`, `M r` the row's maximum
  (the fold of `max` from −∞ over the row's forty entries).
-/
import proofs.«115427_j1846835937364_1_alg».proof.KernelIdeal
import Idealize.ShloMosaic.PureOps.Ideal
import Idealize.ShloMosaic.Lib.ValueIdx

noncomputable section

namespace Cert.Gcn

open Idealize.ShloMosaic Idealize.ShloMosaic.TcCoe Idealize.ShloMosaic.ValueIdx Cert.KernelIdeal

/-! ## The host steps both programs share, as whole-array functions -/

section Host
variable {F : FTy → Type} [FloatOps F] [Facts₀]
open Facts₀

/-- Row `0` of the edge list followed by every node's own number: the source of each edge and self-loop. -/
def srcOf (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- Row `1` of the edge list followed by every node's own number: the destination of each edge and self-loop. -/
def dstOf (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A node number made non-negative by adding the node count to the negative ones, as a gather's index column. -/
def wrapCol (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- `deg ^ (-1/2)`, the degree counted by adding a one at every source. -/
def dinvOf (src : (⟨S1700000, .i32⟩ : BufTy).Contents (Elt F)) : (⟨S100000, .f32⟩ : BufTy).Contents (Elt F) :=
  Host.powf
    (Host.scatterAdd scatter_S100000_S1700000x1_S1700000_n_0_0_1
      (broadcastInDim S100000 ![] bcast_S_S100000 (constant S_ .f32 0x00000000#32))
      (broadcastInDim S1700000x1 ![0] bcast_S1700000_S1700000x1_0 src)
      (broadcastInDim S1700000 ![] bcast_S_S1700000 (constant S_ .f32 0x3F800000#32)))
    (broadcastInDim S100000 ![] bcast_S_S100000 (constant S_ .f32 0xBF000000#32))

/-- The weight of each edge: `dinv` at its source times `dinv` at its destination. -/
def normOf (src dst : (⟨S1700000, .i32⟩ : BufTy).Contents (Elt F)) : (⟨S1700000, .f32⟩ : BufTy).Contents (Elt F) :=
  mulf (Host.gather gather_S100000_S1700000x1_S1700000_n_0_n_n_0_1_1 (dinvOf src) (wrapCol src))
    (Host.gather gather_S100000_S1700000x1_S1700000_n_0_n_n_0_1_1 (dinvOf src) (wrapCol dst))

/-- One layer's aggregation over 64 features: rows of `h` gathered at the sources, scaled by the edge weight,
    added up at the destinations. -/
def agg64 (h : (⟨S100000x64, .f32⟩ : BufTy).Contents (Elt F)) (src dst : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (broadcastInDim S1700000x64 ![0, 1] bcast_S1700000x1_S1700000x64_0_1 (broadcastInDim S1700000x1 ![0] bcast_S1700000_S1700000x1_0 nrm))
      (Host.gather gather_S100000x64_S1700000x1_S1700000x64_1_0_n_n_0_1_164 h (wrapCol src)))

/-- The same over 40 features. -/
def agg40 (h : (⟨S100000x40, .f32⟩ : BufTy).Contents (Elt F)) (src dst : (⟨S1700000, .i32⟩ : BufTy).Contents (Elt F))
    (nrm : (⟨S1700000, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 dst)
    (mulf (broadcastInDim S1700000x40 ![0, 1] bcast_S1700000x1_S1700000x40_0_1 (broadcastInDim S1700000x1 ![0] bcast_S1700000_S1700000x1_0 nrm))
      (Host.gather gather_S100000x40_S1700000x1_S1700000x40_1_0_n_n_0_1_140 h (wrapCol src)))

end Host

/-! ## The dense steps, index by index on the extended reals -/

/-- `x · W + b`: entry `(r, j)` is the sum over the 128 input features plus the bias of column `j`. -/
def lin (x : S100000x128.Idx → EReal) (W : S128x64.Idx → EReal) (b : S64.Idx → EReal) : S100000x64.Idx → EReal :=
  fun i => (∑ k : Fin 128, x (ix2 (i 0) k) * W (ix2 k (i 1))) + b (ix1 (i 1))

theorem lin_apply (x : S100000x128.Idx → EReal) (W : S128x64.Idx → EReal) (b : S64.Idx → EReal) (r : Fin 100000) (j : Fin 64) :
    lin x W b (ix2 r j) = (∑ k : Fin 128, x (ix2 r k) * W (ix2 k j)) + b (ix1 j) := rfl

/-- `max a 0 · W + b`: entry `(r, j)` is the sum over the 64 hidden features of the rectified entry times the weight,
    plus the bias of column `j`. -/
def reluLin (a : S100000x64.Idx → EReal) (W : S64x40.Idx → EReal) (b : S40.Idx → EReal) : S100000x40.Idx → EReal :=
  fun i => (∑ k : Fin 64, max (a (ix2 (i 0) k)) 0 * W (ix2 k (i 1))) + b (ix1 (i 1))

theorem reluLin_apply (a : S100000x64.Idx → EReal) (W : S64x40.Idx → EReal) (b : S40.Idx → EReal) (r : Fin 100000) (j : Fin 40) :
    reluLin a W b (ix2 r j) = (∑ k : Fin 64, max (a (ix2 r k)) 0 * W (ix2 k j)) + b (ix1 j) := rfl

/-- The maximum of row `r`: the fold of `max` from −∞ over its forty entries. -/
def rowMax (a : S100000x40.Idx → EReal) (r : Fin 100000) : EReal :=
  (Finset.univ : Finset (Fin 40)).fold max (⊥ : EReal) (fun k => a (ix2 r k))

/-- The row-wise log-softmax in its shifted form: `(a − M) − log (∑ exp (a − M))` with `M` the row's maximum. -/
def logSoftmax (a : S100000x40.Idx → EReal) : S100000x40.Idx → EReal :=
  fun i => (a (ix2 (i 0) (i 1)) - rowMax a (i 0)) - Ideal.log (∑ k : Fin 40, Ideal.exp (a (ix2 (i 0) k) - rowMax a (i 0)))

theorem logSoftmax_apply (a : S100000x40.Idx → EReal) (r : Fin 100000) (j : Fin 40) :
    logSoftmax a (ix2 r j) = (a (ix2 r j) - rowMax a r) - Ideal.log (∑ k : Fin 40, Ideal.exp (a (ix2 r k) - rowMax a r)) := rfl

/-! ## The whole computation -/

variable [Facts₀]

/-- The network's output from its six inputs: two aggregated layers and the row-wise log-softmax. -/
def out (x : S100000x128.Idx → EReal) (e : (⟨S2x1600000, .i32⟩ : BufTy).Contents (Elt Ideal)) (W1 : S128x64.Idx → EReal) (b1 : S64.Idx → EReal)
    (W2 : S64x40.Idx → EReal) (b2 : S40.Idx → EReal) : S100000x40.Idx → EReal :=
  logSoftmax (agg40 (F := Ideal) (reluLin (agg64 (F := Ideal) (lin x W1 b1) (srcOf e) (dstOf e) (normOf (srcOf e) (dstOf e))) W2 b2)
    (srcOf e) (dstOf e) (normOf (srcOf e) (dstOf e)))

end Cert.Gcn

end
-- ==== Proof.Reg0.lean ====
/-
  The first dense kernel, read as one function of the arrays it finds.

  Its grid has ten points.  At point `t` the pipeline stages rows `10000 t … 10000 t + 9999` of the node features
  (window 0), the whole weight matrix (window 1) and the bias as a one-row array (window 2), and writes back rows
  `10000 t … 10000 t + 9999` of the result (window 3).  The body stores, at `(p, q)` of its block, the sum over the 128
  input features of the block's row `p` against the weights' column `q` (a matrix product into a zero accumulator;
  the change of float format on the way in is the identity on the extended reals) plus the bias entry `q`.  Row `p`
  of block `t` is row `10000 t + p` of the array, the ten blocks cover the 100000 rows, so the result array ends as
  `lin` of the three arrays, entry by entry.
-/
import proofs.«115427_j1846835937364_1_alg».proof.Proof.Spec
import proofs.«115427_j1846835937364_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section
namespace Cert.Gcn.Reg0
open Cert.Gcn Cert.KernelIdeal Cert.KernelIdeal.Gen Idealize.ShloMosaic Idealize.ShloMosaic.TcCoe Idealize.ShloMosaic.ValueIdx Idealize.SL.Sem

theorem hz : (![0, 0] : Fin 2 → Nat) = fun _ => 0 := funext fun a => by fin_cases a <;> rfl

theorem dotA_l0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dotA_l1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem dotA_r0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem dotA_r1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block product into a zero accumulator, read at `(p, q)`: the sum over the 128 contracted features. -/
theorem matA_apply (a : FVec Ideal S10000x128 .bf16) (w : FVec Ideal S128x64 .bf16) (p : Fin 10000) (q : Fin 64) :
    matmul dot_S10000x128_S128x64_S10000x64_1_0_0_1_n_n none a w (constant S10000x64 .f32 0x00000000#32) (ix2 p q)
      = ∑ k : Fin 128, a (ix2 p k) * w (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact dotA_l0 _ _
    | ⟨1, _⟩ => exact (dotA_l1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (dotA_r0 _ _).trans hk
    | ⟨1, _⟩ => exact dotA_r1 _ _)
  rw [el, er]

/-- The first kernel's stored value at `(p, q)` of its block: the row of the input block against the column of the
    weights, plus the bias row's entry. -/
theorem pay0_apply (x0 : Vec Ideal S10000x128 .f32) (x1 : Vec Ideal S128x64 .f32) (x2 : Vec Ideal S1x64 .f32) (p : Fin 10000) (q : Fin 64) :
    k0_pay1 x0 x1 x2 (ix2 p q) = (∑ k : Fin 128, x0 (ix2 p k) * x1 (ix2 k q)) + x2 (ix2 (0 : Fin 1) q) := by
  unfold k0_pay1
  rw [shapeCast_self, shapeCast_self]
  refine (addf_apply _ _ _).trans ?_
  rw [matA_apply, broadcastTo_1b_ab_apply]
  rfl

variable (V : (c : Dev nD) → (b : Ref sig .tc) → Buf (Elt Ideal) ((c : Thread nD τ).loc b))

/-- The printed index maps of the first kernel's windows, decided once over its ten grid points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of grid point `t`'s block is row `10000 t + p` of the array. -/
def rowAt (t : Fin cfg0.N) (p : Fin 10000) : Fin 100000 :=
  ⟨10000 * t.val + p.val, by have h : t.val < grid0.N := t.isLt; rw [N_0] at h; have := p.isLt; omega⟩

theorem blk0_0 (c : Dev nD) (t : Fin cfg0.N) (p : Fin 10000) (k : Fin 128) :
    (iblk0 V c 0 t : Vec Ideal S10000x128 .f32) (ix2 p k) = (V c main_arg0 : S100000x128.Idx → EReal) (ix2 (rowAt t p) k) := by
  obtain ⟨e0, e1, -⟩ := idx0 t
  unfold iblk0
  rw [View.read_apply]
  refine congrArg (V c main_arg0) (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 128 + 1 * k.val = k.val; rw [e1]; omega

theorem blk0_1 (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e0, e1, -⟩ := idx0 t
  unfold iblk0
  rw [View.read_apply]
  refine congrArg (V c main_arg2) (funext fun a => Fin.ext ?_)
  match a with
  | ⟨0, _⟩ => show win0_1.index t (0 : Fin 2) * 128 + 1 * k.val = k.val; rw [e0]; omega
  | ⟨1, _⟩ => show win0_1.index t (1 : Fin 2) * 64 + 1 * q.val = q.val; rw [e1]; omega

theorem blk0_2 (c : Dev nD) (t : Fin cfg0.N) (q : Fin 64) :
    (iblk0 V c 2 t : Vec Ideal S1x64 .f32) (ix2 (0 : Fin 1) q) = (V c main_v28 : S1x64.Idx → EReal) (ix2 (0 : Fin 1) q) := by
  obtain ⟨-, -, -, -, e0, e1, -⟩ := idx0 t
  unfold iblk0
  rw [View.read_apply]
  refine congrArg (V c main_v28) (funext fun a => Fin.ext ?_)
  match a with
  | ⟨0, _⟩ => show win0_2.index t (0 : Fin 2) * 1 + 1 * 0 = 0; rw [e0]
  | ⟨1, _⟩ => show win0_2.index t (1 : Fin 2) * 64 + 1 * q.val = q.val; rw [e1]; omega

theorem emb0_3 (t : Fin cfg0.N) (p : Fin 10000) (q : Fin 64) :
    ((cfg0.win 3).blk t).view.emb (ix2 p q) = (ix2 (rowAt t p) q : S100000x64.Idx) := by
  obtain ⟨-, -, -, -, -, -, e0, e1⟩ := idx0 t
  refine funext fun a => Fin.ext ?_
  match a with
  | ⟨0, _⟩ => show win0_3.index t (0 : Fin 2) * 10000 + 1 * p.val = 10000 * t.val + p.val; rw [e0]; omega
  | ⟨1, _⟩ => show win0_3.index t (1 : Fin 2) * 64 + 1 * q.val = q.val; rw [e1]; omega

theorem flushed0_eq (c : Dev nD) (t : Fin cfg0.N) :
    (dat0 (F := Ideal) V c).flushed 3 t = ((cfg0.win 3).blk t).view.read (Elt Ideal)
      (lin (V c main_arg0) (V c main_arg2) (fun j => V c main_v28 (ix2 (0 : Fin 1) (j 0)))) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (ix2 p q)
    = lin (V c main_arg0) (V c main_arg2) (fun j => V c main_v28 (ix2 (0 : Fin 1) (j 0))) (((cfg0.win 3).blk t).view.emb (ix2 p q))
  rw [pay0_apply, emb0_3, blk0_2]
  simp only [blk0_0, blk0_1]
  rfl

/-- An index of the result array is in point `t`'s block iff each coordinate is in the block's range on its axis. -/
theorem mem_blk0_3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v29).slice (win0_3.rect t)).set ↔ _
  rw [View.set_slice_whole, Rect.mem_set_unit]
  exact Iff.rfl

/-- Row `r` lies in the block of point `⌊r / 10000⌋`, which is written back: the ten blocks cover the array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 10000 < grid0.N := by rw [N_0]; omega
  refine ⟨⟨(i 0).val / 10000, hN⟩, flush0_3 _, ?_⟩
  rw [mem_blk0_3]
  obtain ⟨-, -, -, -, -, -, e0, e1⟩ := idx0 ⟨(i 0).val / 10000, hN⟩
  intro a
  match a with
  | ⟨0, _⟩ =>
    show win0_3.index ⟨(i 0).val / 10000, hN⟩ (0 : Fin 2) * 10000 ≤ (i 0).val ∧ (i 0).val < win0_3.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, hN⟩ (1 : Fin 2) * 64 ≤ (i 1).val ∧ (i 1).val < win0_3.index ⟨(i 0).val / 10000, hN⟩ (1 : Fin 2) * 64 + 64
    rw [e1]; omega

end Cert.Gcn.Reg0

namespace Cert.Gcn
open Cert.KernelIdeal Cert.KernelIdeal.Gen Idealize.ShloMosaic Idealize.ShloMosaic.TcCoe Idealize.ShloMosaic.ValueIdx Idealize.SL.Sem

/-- After the first dense kernel's region the result array is `lin` of the arrays the region found: the node features,
    the weights, and the bias read off its one-row array. -/
theorem reg0_value (V : (c : Dev nD) → (b : Ref sig .tc) → Buf (Elt Ideal) ((c : Thread nD τ).loc b)) (c : Dev nD) :
    (dat0 (F := Ideal) V c).arrAt 3 cfg0.N
      = lin (V c main_arg0) (V c main_arg2) (fun j => V c main_v28 (ix2 (0 : Fin 1) (j 0))) :=
  (dat0 V c).arrAt_eq_of_cover 3 _ (fun t _ => Reg0.flushed0_eq V c t) Reg0.cover0

end Cert.Gcn

end
-- ==== Proof.Reg1.lean ====
/-
  The second dense kernel, read as one function of the arrays it finds.

  Its grid has ten points.  At point `t` the pipeline stages rows `10000 t … 10000 t + 9999` of the aggregated hidden
  features (window 0), the whole second weight matrix (window 1) and the bias as a one-row array (window 2), and writes
  back the same rows of the result (window 3).  The body first rectifies its block (the maximum with zero), then stores,
  at `(p, q)`, the sum over the 64 hidden features of the rectified row `p` against the weights' column `q` plus the
  bias entry `q`.  Row `p` of block `t` is row `10000 t + p` of the array and the ten blocks cover the 100000 rows, so
  the result array ends as `reluLin` of the three arrays, entry by entry.
-/
import proofs.«115427_j1846835937364_1_alg».proof.Proof.Spec
import proofs.«115427_j1846835937364_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section
namespace Cert.Gcn.Reg1
open Cert.Gcn Cert.KernelIdeal Cert.KernelIdeal.Gen Idealize.ShloMosaic Idealize.ShloMosaic.TcCoe Idealize.ShloMosaic.ValueIdx Idealize.SL.Sem

theorem hz : (![0, 0] : Fin 2 → Nat) = fun _ => 0 := funext fun a => by fin_cases a <;> rfl

theorem dotB_l0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem dotB_l1 (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
theorem dotB_r0 (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
theorem dotB_r1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The block product into a zero accumulator, read at `(p, q)`: the sum over the 64 contracted features. -/
theorem matB_apply (a : FVec Ideal S10000x64 .bf16) (w : FVec Ideal S64x40 .bf16) (p : Fin 10000) (q : Fin 40) :
    matmul dot_S10000x64_S64x40_S10000x40_1_0_0_1_n_n none a w (constant S10000x40 .f32 0x00000000#32) (ix2 p q)
      = ∑ k : Fin 64, a (ix2 p k) * w (ix2 k q) := by
  simp only [matmul]
  rw [Ideal.matmul_constant_zero_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p q) ((contrEquiv1 dot_S10000x64_S64x40_S10000x40_1_0_0_1_n_n 64 rfl rfl).symm k) = ix2 p k := funext fun a => Fin.ext (by
    match a with
    | ⟨0, _⟩ => exact dotB_l0 _ _
    | ⟨1, _⟩ => exact (dotB_l1 _ _).trans hk)
  have er : dot_S10000x64_S64x40_S10000x40_1_0_0_1_n_n.rhsIdx (ix2 p q) ((contrEquiv1 dot_S10000x64_S64x40_S10000x40_1_0_0_1_n_n 64 rfl rfl).symm k) = ix2 k q := funext fun a => Fin.ext (by
    match a with
    | ⟨0, _⟩ => exact (dotB_r0 _ _).trans hk
    | ⟨1, _⟩ => exact dotB_r1 _ _)
  rw [el, er]

/-- The second kernel's stored value at `(p, q)` of its block: the rectified row of the input block against the column
    of the weights, plus the bias row's entry. -/
theorem pay1_apply (x0 : Vec Ideal S10000x64 .f32) (x1 : Vec Ideal S64x40 .f32) (x2 : Vec Ideal S1x40 .f32) (p : Fin 10000) (q : Fin 40) :
    k1_pay1 x0 x1 x2 (ix2 p q) = (∑ k : Fin 64, max (x0 (ix2 p k)) 0 * x1 (ix2 k q)) + x2 (ix2 (0 : Fin 1) q) := by
  unfold k1_pay1
  rw [shapeCast_self, shapeCast_self, shapeCast_self]
  refine (addf_apply _ _ _).trans ?_
  rw [matB_apply, broadcastTo_1b_ab_apply]
  refine congrArg (· + x2 (ix2 (0 : Fin 1) q)) (Finset.sum_congr rfl fun k _ => ?_)
  show max (x0 (ix2 p k)) (Ideal.ofBits .f32 0x00000000#32) * x1 (ix2 k q) = _
  rw [Ideal.ofBits_zero_f32]

variable (V : (c : Dev nD) → (b : Ref sig .tc) → Buf (Elt Ideal) ((c : Thread nD τ).loc b))

/-- The printed index maps of the second kernel's windows, decided once over its ten grid points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of grid point `t`'s block is row `10000 t + p` of the array. -/
def rowAt (t : Fin cfg1.N) (p : Fin 10000) : Fin 100000 :=
  ⟨10000 * t.val + p.val, by have h : t.val < grid1.N := t.isLt; rw [N_1] at h; have := p.isLt; omega⟩

theorem blk1_0 (c : Dev nD) (t : Fin cfg1.N) (p : Fin 10000) (k : Fin 64) :
    (iblk1 V c 0 t : Vec Ideal S10000x64 .f32) (ix2 p k) = (V c main_v42 : S100000x64.Idx → EReal) (ix2 (rowAt t p) k) := by
  obtain ⟨e0, e1, -⟩ := idx1 t
  unfold iblk1
  rw [View.read_apply]
  refine congrArg (V c main_v42) (funext fun a => Fin.ext ?_)
  match a with
  | ⟨0, _⟩ => show win1_0.index t (0 : Fin 2) * 10000 + 1 * p.val = 10000 * t.val + p.val; rw [e0]; omega
  | ⟨1, _⟩ => show win1_0.index t (1 : Fin 2) * 64 + 1 * k.val = k.val; rw [e1]; omega

theorem blk1_1 (c : Dev nD) (t : Fin cfg1.N) (k : Fin 64) (q : Fin 40) :
    (iblk1 V c 1 t : Vec Ideal S64x40 .f32) (ix2 k q) = (V c main_arg4 : S64x40.Idx → EReal) (ix2 k q) := by
  obtain ⟨-, -, e0, e1, -⟩ := idx1 t
  unfold iblk1
  rw [View.read_apply]
  refine congrArg (V c main_arg4) (funext fun a => Fin.ext ?_)
  match a with
  | ⟨0, _⟩ => show win1_1.index t (0 : Fin 2) * 64 + 1 * k.val = k.val; rw [e0]; omega
  | ⟨1, _⟩ => show win1_1.index t (1 : Fin 2) * 40 + 1 * q.val = q.val; rw [e1]; omega

theorem blk1_2 (c : Dev nD) (t : Fin cfg1.N) (q : Fin 40) :
    (iblk1 V c 2 t : Vec Ideal S1x40 .f32) (ix2 (0 : Fin 1) q) = (V c main_v43 : S1x40.Idx → EReal) (ix2 (0 : Fin 1) q) := by
  obtain ⟨-, -, -, -, e0, e1, -⟩ := idx1 t
  unfold iblk1
  rw [View.read_apply]
  refine congrArg (V c main_v43) (funext fun a => Fin.ext ?_)
  match a with
  | ⟨0, _⟩ => show win1_2.index t (0 : Fin 2) * 1 + 1 * 0 = 0; rw [e0]
  | ⟨1, _⟩ => show win1_2.index t (1 : Fin 2) * 40 + 1 * q.val = q.val; rw [e1]; omega

theorem emb1_3 (t : Fin cfg1.N) (p : Fin 10000) (q : Fin 40) :
    ((cfg1.win 3).blk t).view.emb (ix2 p q) = (ix2 (rowAt t p) q : S100000x40.Idx) := by
  obtain ⟨-, -, -, -, -, -, e0, e1⟩ := idx1 t
  refine funext fun a => Fin.ext ?_
  match a with
  | ⟨0, _⟩ => show win1_3.index t (0 : Fin 2) * 10000 + 1 * p.val = 10000 * t.val + p.val; rw [e0]; omega
  | ⟨1, _⟩ => show win1_3.index t (1 : Fin 2) * 40 + 1 * q.val = q.val; rw [e1]; omega

theorem flushed1_eq (c : Dev nD) (t : Fin cfg1.N) :
    (dat1 (F := Ideal) V c).flushed 3 t = ((cfg1.win 3).blk t).view.read (Elt Ideal)
      (reluLin (V c main_v42) (V c main_arg4) (fun j => V c main_v43 (ix2 (0 : Fin 1) (j 0)))) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x40) hz, View.ld_unit_zero (S := S1x40) hz]
  funext j
  obtain ⟨p, q, rfl⟩ : ∃ (p : Fin 10000) (q : Fin 40), j = ix2 p q := ⟨j 0, j 1, eq_ix2 j⟩
  show k1_pay1 (iblk1 V c 0 t) (iblk1 V c 1 t) (iblk1 V c 2 t) (ix2 p q)
    = reluLin (V c main_v42) (V c main_arg4) (fun j => V c main_v43 (ix2 (0 : Fin 1) (j 0))) (((cfg1.win 3).blk t).view.emb (ix2 p q))
  rw [pay1_apply, emb1_3, blk1_2]
  simp only [blk1_0, blk1_1]
  rfl

/-- An index of the result array is in point `t`'s block iff each coordinate is in the block's range on its axis. -/
theorem mem_blk1_3 (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v44).slice (win1_3.rect t)).set ↔ _
  rw [View.set_slice_whole, Rect.mem_set_unit]
  exact Iff.rfl

/-- Row `r` lies in the block of point `⌊r / 10000⌋`, which is written back: the ten blocks cover the array. -/
theorem cover1 (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : (i 0).val / 10000 < grid1.N := by rw [N_1]; omega
  refine ⟨⟨(i 0).val / 10000, hN⟩, flush1_3 _, ?_⟩
  rw [mem_blk1_3]
  obtain ⟨-, -, -, -, -, -, e0, e1⟩ := idx1 ⟨(i 0).val / 10000, hN⟩
  intro a
  match a with
  | ⟨0, _⟩ =>
    show win1_3.index ⟨(i 0).val / 10000, hN⟩ (0 : Fin 2) * 10000 ≤ (i 0).val ∧ (i 0).val < win1_3.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, hN⟩ (1 : Fin 2) * 40 ≤ (i 1).val ∧ (i 1).val < win1_3.index ⟨(i 0).val / 10000, hN⟩ (1 : Fin 2) * 40 + 40
    rw [e1]; omega

end Cert.Gcn.Reg1

namespace Cert.Gcn
open Cert.KernelIdeal Cert.KernelIdeal.Gen Idealize.ShloMosaic Idealize.ShloMosaic.TcCoe Idealize.ShloMosaic.ValueIdx Idealize.SL.Sem

/-- After the second dense kernel's region the result array is `reluLin` of the arrays the region found: the aggregated
    hidden features, the weights, and the bias read off its one-row array. -/
theorem reg1_value (V : (c : Dev nD) → (b : Ref sig .tc) → Buf (Elt Ideal) ((c : Thread nD τ).loc b)) (c : Dev nD) :
    (dat1 (F := Ideal) V c).arrAt 3 cfg1.N
      = reluLin (V c main_v42) (V c main_arg4) (fun j => V c main_v43 (ix2 (0 : Fin 1) (j 0))) :=
  (dat1 V c).arrAt_eq_of_cover 3 _ (fun t _ => Reg1.flushed1_eq V c t) Reg1.cover1

end Cert.Gcn

end
-- ==== Proof.KHost.lean ====
/-
  The idealized kernel program between its kernels: what each buffer holds at every boundary of its six segments.

  The boundary contents are a fold from the launch memory (`W0 … W6` of the frame module): a stretch of host
  operations applies their functions (`W1`, `W3`, `W5`), a kernel's region replaces its result array by what its
  write-backs leave and keeps every other buffer (`W2`, `W4`, `W6`).  Read at the buffers the computation uses:
  the first stretch forms the edge sources, destinations and weights from the edge list and the first bias as a
  one-row array; the first kernel leaves `lin` of the features, weights and bias; the second stretch aggregates it
  over the edges and forms the second bias row; the second kernel leaves `reluLin` of that; the third stretch
  aggregates again.  Nothing in between writes the edge lists, the weights or the arguments, so each is read back to
  where it was made.  The host operations are never opened: each stretch is the named whole-array function of the
  specification.
-/
import proofs.«115427_j1846835937364_1_alg».proof.Proof.Spec
import proofs.«115427_j1846835937364_1_alg».proof.Proof.Reg0
import proofs.«115427_j1846835937364_1_alg».proof.Proof.Reg1
import proofs.«115427_j1846835937364_1_alg».proof.Proof.Gen.KernelIdeal.Frame
import Idealize.ShloMosaic.Lib.StableHlo.Run
import Idealize.ShloMosaic.Lib.ValueLayout

set_option maxRecDepth 16384

noncomputable section
namespace Cert.Gcn.KHost
open Cert.Gcn Cert.KernelIdeal Cert.KernelIdeal.Gen Idealize.ShloMosaic Idealize.ShloMosaic.TcCoe Idealize.ShloMosaic.ValueIdx
open Idealize.SL.Sem Idealize.ShloMosaic.StableHlo

/-! ## Each stretch of host operations, from any contents `U` -/

section Stretches
variable (U : Valuation τ sig (Elt Ideal))

theorem s0_v3 : after (hostOps0 (F := Ideal)) U (Proc.devRef .tc main_v3) = srcOf (U (Proc.devRef .tc main_arg1)) := by
  after_results_simp <;> rfl
theorem s0_v6 : after (hostOps0 (F := Ideal)) U (Proc.devRef .tc main_v6) = dstOf (U (Proc.devRef .tc main_arg1)) := by
  after_results_simp <;> rfl
theorem s0_v27 : after (hostOps0 (F := Ideal)) U (Proc.devRef .tc main_v27)
    = normOf (srcOf (U (Proc.devRef .tc main_arg1))) (dstOf (U (Proc.devRef .tc main_arg1))) := by
  after_results_simp <;> rfl
theorem s0_v28 : after (hostOps0 (F := Ideal)) U (Proc.devRef .tc main_v28)
    = shapeCast S1x64 (U (Proc.devRef .tc main_arg3)) shapeCasts_S64_S1x64 := by
  after_results_simp <;> rfl
theorem s0_arg0 : after (hostOps0 (F := Ideal)) U (Proc.devRef .tc main_arg0) = U (Proc.devRef .tc main_arg0) := by
  after_results_simp <;> rfl
theorem s0_arg2 : after (hostOps0 (F := Ideal)) U (Proc.devRef .tc main_arg2) = U (Proc.devRef .tc main_arg2) := by
  after_results_simp <;> rfl
theorem s0_arg4 : after (hostOps0 (F := Ideal)) U (Proc.devRef .tc main_arg4) = U (Proc.devRef .tc main_arg4) := by
  after_results_simp <;> rfl
theorem s0_arg5 : after (hostOps0 (F := Ideal)) U (Proc.devRef .tc main_arg5) = U (Proc.devRef .tc main_arg5) := by
  after_results_simp <;> rfl

set_option maxHeartbeats 400000 in
theorem s1_v42 : after (hostOps1 (F := Ideal)) U (Proc.devRef .tc main_v42)
    = agg64 (U (Proc.devRef .tc main_v29)) (U (Proc.devRef .tc main_v3)) (U (Proc.devRef .tc main_v6)) (U (Proc.devRef .tc main_v27)) := by
  unfold agg64 wrapCol
  after_results_simp
  all_goals rfl
theorem s1_v43 : after (hostOps1 (F := Ideal)) U (Proc.devRef .tc main_v43)
    = shapeCast S1x40 (U (Proc.devRef .tc main_arg5)) shapeCasts_S40_S1x40 := by
  after_results_simp <;> rfl
theorem s1_arg4 : after (hostOps1 (F := Ideal)) U (Proc.devRef .tc main_arg4) = U (Proc.devRef .tc main_arg4) := by
  after_results_simp <;> rfl
theorem s1_v3 : after (hostOps1 (F := Ideal)) U (Proc.devRef .tc main_v3) = U (Proc.devRef .tc main_v3) := by
  after_results_simp <;> rfl
theorem s1_v6 : after (hostOps1 (F := Ideal)) U (Proc.devRef .tc main_v6) = U (Proc.devRef .tc main_v6) := by
  after_results_simp <;> rfl
theorem s1_v27 : after (hostOps1 (F := Ideal)) U (Proc.devRef .tc main_v27) = U (Proc.devRef .tc main_v27) := by
  after_results_simp <;> rfl

set_option maxHeartbeats 400000 in
theorem s2_v57 : after (hostOps2 (F := Ideal)) U (Proc.devRef .tc main_v57)
    = agg40 (U (Proc.devRef .tc main_v44)) (U (Proc.devRef .tc main_v3)) (U (Proc.devRef .tc main_v6)) (U (Proc.devRef .tc main_v27)) := by
  unfold agg40 wrapCol
  after_results_simp
  all_goals rfl

end Stretches

/-! ## The boundaries of the run -/

variable (m : (ℓ : Loc nD τ sig) → Buf (Elt Ideal) ℓ) (ρ : Dev nD → PrngReg) (c : Dev nD)

/-- The edge list as launched. -/
abbrev e0 : (⟨S2x1600000, .i32⟩ : BufTy).Contents (Elt Ideal) := m ((c.tc : Thread nD τ).loc main_arg1)

theorem b1_v3 : W1 m ρ c (Proc.devRef .tc main_v3) = srcOf (e0 m c) := s0_v3 (W0 m ρ c)
theorem b1_v6 : W1 m ρ c (Proc.devRef .tc main_v6) = dstOf (e0 m c) := s0_v6 (W0 m ρ c)
theorem b1_v27 : W1 m ρ c (Proc.devRef .tc main_v27) = normOf (srcOf (e0 m c)) (dstOf (e0 m c)) := s0_v27 (W0 m ρ c)
theorem b1_v28 : W1 m ρ c (Proc.devRef .tc main_v28) = shapeCast S1x64 (m ((c.tc : Thread nD τ).loc main_arg3)) shapeCasts_S64_S1x64 := s0_v28 (W0 m ρ c)
theorem b1_arg0 : W1 m ρ c (Proc.devRef .tc main_arg0) = m ((c.tc : Thread nD τ).loc main_arg0) := s0_arg0 (W0 m ρ c)
theorem b1_arg2 : W1 m ρ c (Proc.devRef .tc main_arg2) = m ((c.tc : Thread nD τ).loc main_arg2) := s0_arg2 (W0 m ρ c)
theorem b1_arg4 : W1 m ρ c (Proc.devRef .tc main_arg4) = m ((c.tc : Thread nD τ).loc main_arg4) := s0_arg4 (W0 m ρ c)
theorem b1_arg5 : W1 m ρ c (Proc.devRef .tc main_arg5) = m ((c.tc : Thread nD τ).loc main_arg5) := s0_arg5 (W0 m ρ c)

/-- The first kernel's region writes none of these buffers. -/
theorem ne0_v3 : ∀ w, Pipeline.arrRef spec0 w ≠ main_v3 := by decide
theorem ne0_v6 : ∀ w, Pipeline.arrRef spec0 w ≠ main_v6 := by decide
theorem ne0_v27 : ∀ w, Pipeline.arrRef spec0 w ≠ main_v27 := by decide
theorem ne0_arg4 : ∀ w, Pipeline.arrRef spec0 w ≠ main_arg4 := by decide
theorem ne0_arg5 : ∀ w, Pipeline.arrRef spec0 w ≠ main_arg5 := by decide

theorem b2_v3 : W2 m ρ c (Proc.devRef .tc main_v3) = srcOf (e0 m c) := (W2_of_ne m ρ c main_v3 ne0_v3).trans (b1_v3 m ρ c)
theorem b2_v6 : W2 m ρ c (Proc.devRef .tc main_v6) = dstOf (e0 m c) := (W2_of_ne m ρ c main_v6 ne0_v6).trans (b1_v6 m ρ c)
theorem b2_v27 : W2 m ρ c (Proc.devRef .tc main_v27) = normOf (srcOf (e0 m c)) (dstOf (e0 m c)) := (W2_of_ne m ρ c main_v27 ne0_v27).trans (b1_v27 m ρ c)
theorem b2_arg4 : W2 m ρ c (Proc.devRef .tc main_arg4) = m ((c.tc : Thread nD τ).loc main_arg4) := (W2_of_ne m ρ c main_arg4 ne0_arg4).trans (b1_arg4 m ρ c)
theorem b2_arg5 : W2 m ρ c (Proc.devRef .tc main_arg5) = m ((c.tc : Thread nD τ).loc main_arg5) := (W2_of_ne m ρ c main_arg5 ne0_arg5).trans (b1_arg5 m ρ c)

/-- The bias as a one-row array, read at its one row, is the bias. -/
theorem row_b1 : (fun j : S64.Idx => (W1 m ρ c (Proc.devRef .tc main_v28) : S1x64.Idx → EReal) (ix2 (0 : Fin 1) (j 0)))
    = m ((c.tc : Thread nD τ).loc main_arg3) := by
  funext j
  rw [b1_v28]
  refine (shapeCast_a_1a_apply _ _ (0 : Fin 1) (j 0)).trans ?_
  exact congrArg _ (eq_ix1 j).symm

/-- After the first kernel the hidden features are `lin` of the launched features, weights and bias. -/
theorem b2_v29 : W2 m ρ c (Proc.devRef .tc main_v29)
    = lin (m ((c.tc : Thread nD τ).loc main_arg0)) (m ((c.tc : Thread nD τ).loc main_arg2)) (m ((c.tc : Thread nD τ).loc main_arg3)) := by
  refine (W2_arr m ρ c 3).trans ((reg0_value (V1 m ρ) c).trans ?_)
  show lin (W1 m ρ c (Proc.devRef .tc main_arg0)) (W1 m ρ c (Proc.devRef .tc main_arg2))
    (fun j : S64.Idx => (W1 m ρ c (Proc.devRef .tc main_v28) : S1x64.Idx → EReal) (ix2 (0 : Fin 1) (j 0))) = _
  rw [b1_arg0, b1_arg2, row_b1]

/-- The hidden features aggregated over the edges. -/
abbrev h1 : S100000x64.Idx → EReal :=
  agg64 (F := Ideal) (lin (m ((c.tc : Thread nD τ).loc main_arg0)) (m ((c.tc : Thread nD τ).loc main_arg2)) (m ((c.tc : Thread nD τ).loc main_arg3)))
    (srcOf (e0 m c)) (dstOf (e0 m c)) (normOf (srcOf (e0 m c)) (dstOf (e0 m c)))

theorem b3_v42 : W3 m ρ c (Proc.devRef .tc main_v42) = h1 m c := by
  refine (s1_v42 (W2 m ρ c)).trans ?_
  rw [b2_v29, b2_v3, b2_v6, b2_v27]
theorem b3_v43 : W3 m ρ c (Proc.devRef .tc main_v43) = shapeCast S1x40 (m ((c.tc : Thread nD τ).loc main_arg5)) shapeCasts_S40_S1x40 := by
  refine (s1_v43 (W2 m ρ c)).trans ?_
  rw [b2_arg5]
theorem b3_arg4 : W3 m ρ c (Proc.devRef .tc main_arg4) = m ((c.tc : Thread nD τ).loc main_arg4) := (s1_arg4 (W2 m ρ c)).trans (b2_arg4 m ρ c)
theorem b3_v3 : W3 m ρ c (Proc.devRef .tc main_v3) = srcOf (e0 m c) := (s1_v3 (W2 m ρ c)).trans (b2_v3 m ρ c)
theorem b3_v6 : W3 m ρ c (Proc.devRef .tc main_v6) = dstOf (e0 m c) := (s1_v6 (W2 m ρ c)).trans (b2_v6 m ρ c)
theorem b3_v27 : W3 m ρ c (Proc.devRef .tc main_v27) = normOf (srcOf (e0 m c)) (dstOf (e0 m c)) := (s1_v27 (W2 m ρ c)).trans (b2_v27 m ρ c)

/-- The second kernel's region writes none of these buffers. -/
theorem ne1_v3 : ∀ w, Pipeline.arrRef spec1 w ≠ main_v3 := by decide
theorem ne1_v6 : ∀ w, Pipeline.arrRef spec1 w ≠ main_v6 := by decide
theorem ne1_v27 : ∀ w, Pipeline.arrRef spec1 w ≠ main_v27 := by decide

theorem b4_v3 : W4 m ρ c (Proc.devRef .tc main_v3) = srcOf (e0 m c) := (W4_of_ne m ρ c main_v3 ne1_v3).trans (b3_v3 m ρ c)
theorem b4_v6 : W4 m ρ c (Proc.devRef .tc main_v6) = dstOf (e0 m c) := (W4_of_ne m ρ c main_v6 ne1_v6).trans (b3_v6 m ρ c)
theorem b4_v27 : W4 m ρ c (Proc.devRef .tc main_v27) = normOf (srcOf (e0 m c)) (dstOf (e0 m c)) := (W4_of_ne m ρ c main_v27 ne1_v27).trans (b3_v27 m ρ c)

theorem row_b2 : (fun j : S40.Idx => (W3 m ρ c (Proc.devRef .tc main_v43) : S1x40.Idx → EReal) (ix2 (0 : Fin 1) (j 0)))
    = m ((c.tc : Thread nD τ).loc main_arg5) := by
  funext j
  rw [b3_v43]
  refine (shapeCast_a_1a_apply _ _ (0 : Fin 1) (j 0)).trans ?_
  exact congrArg _ (eq_ix1 j).symm

/-- After the second kernel the class scores are `reluLin` of the aggregated hidden features. -/
theorem b4_v44 : W4 m ρ c (Proc.devRef .tc main_v44)
    = reluLin (h1 m c) (m ((c.tc : Thread nD τ).loc main_arg4)) (m ((c.tc : Thread nD τ).loc main_arg5)) := by
  refine (W4_arr m ρ c 3).trans ((reg1_value (V3 m ρ) c).trans ?_)
  show reluLin (W3 m ρ c (Proc.devRef .tc main_v42)) (W3 m ρ c (Proc.devRef .tc main_arg4))
    (fun j : S40.Idx => (W3 m ρ c (Proc.devRef .tc main_v43) : S1x40.Idx → EReal) (ix2 (0 : Fin 1) (j 0))) = _
  rw [b3_v42, b3_arg4, row_b2]

/-- What the log-softmax kernel finds: the class scores aggregated over the edges. -/
theorem b5_v57 : W5 m ρ c (Proc.devRef .tc main_v57)
    = agg40 (F := Ideal) (reluLin (h1 m c) (m ((c.tc : Thread nD τ).loc main_arg4)) (m ((c.tc : Thread nD τ).loc main_arg5)))
        (srcOf (e0 m c)) (dstOf (e0 m c)) (normOf (srcOf (e0 m c)) (dstOf (e0 m c))) := by
  refine (s2_v57 (W4 m ρ c)).trans ?_
  rw [b4_v44, b4_v3, b4_v6, b4_v27]

end Cert.Gcn.KHost

end
-- ==== Proof.Reg2.lean ====
/-
  The third kernel region: the row-wise log-softmax of a [100000, 40] array, computed ten thousand rows at a
  time.  At every grid point the body shifts each row of its block by the row's maximum, exponentiates, sums
  the forty entries, and subtracts the logarithm of the sum from the shifted row.  Because every step acts on
  one row only, the block a point writes back is the same rows of the log-softmax of the whole array; the ten
  blocks tile the array, so the array the region leaves is that function everywhere.
-/
import proofs.«115427_j1846835937364_1_alg».proof.Proof.Spec
import proofs.«115427_j1846835937364_1_alg».proof.Proof.Gen.KernelIdeal.Frame
import Idealize.ShloMosaic.Lib.ValueLayout
import Idealize.ShloMosaic.Lib.Pipeline.Value
import Idealize.ShloMosaic.PureOps.Ideal.Laws

set_option maxRecDepth 16384

noncomputable section

namespace Cert.Gcn.Reg2

open Idealize.ShloMosaic Idealize.ShloMosaic.TcCoe Idealize.ShloMosaic.ValueIdx Idealize.SL.Sem
open Idealize.ShloMosaic.Pipeline (Dat)
open Cert.KernelIdeal Cert.KernelIdeal.Gen
open Cert.KernelIdeal.Facts₀

/-! ## Layout steps of a keep-dimensions reduction, read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential and the logarithm of a vector, entry by entry. -/
theorem vexp_apply {s : Shape} {φ : FTy} (a : FVec Ideal s φ) (i : s.Idx) :
    Idealize.ShloMosaic.exp a i = Ideal.exp (a i) := rfl

theorem vlog_apply {s : Shape} {φ : FTy} (a : FVec Ideal s φ) (i : s.Idx) :
    Idealize.ShloMosaic.log a i = Ideal.log (a i) := rfl

/-! ## The two row reductions of a [10000, 40] block -/

/-- The bit pattern the maximum starts from is −∞. -/
theorem ofBits_neg_inf : Ideal.ofBits .f32 0xFF800000#32 = (⊥ : EReal) := by
  simp [Ideal.ofBits, Ideal.ieee]

/-- Row `p`'s index with column `k` put back is `(p, k)`. -/
theorem lift_row (h : S10000x40.Reduces [1] S10000) (p : Fin 10000) (k : Fin 40) :
    h.lift (ix1 p) k = ix2 p k := by
  funext c; apply Fin.ext
  match c with
  | ⟨0, _⟩ => rfl
  | ⟨1, _⟩ => rfl

/-- The block's maximum along the columns, at row `p`: the fold of `max` from −∞ over the row's forty entries. -/
theorem rowMax_block (src : FVec Ideal S10000x40 .f32) (h : S10000x40.Reduces [1] S10000) (hφ : FKind.Formats .f32)
    (hacc : (0xFF800000#32 : BitVec 32) = 0xFF800000#32) (p : Fin 10000) :
    multiReduction (F := Ideal) .maximumf [1] S10000 src 0xFF800000#32 h hφ hacc (ix1 p)
      = (Finset.univ : Finset (Fin 40)).fold max (⊥ : EReal) (fun k => src (ix2 p k)) := by
  refine (Ideal.multiReduction_maximumf_single src 0xFF800000#32 h hφ hacc (ix1 p)).trans ?_
  show (Finset.univ : Finset (Fin 40)).fold max (Ideal.ofBits .f32 0xFF800000#32) (fun k => src (h.lift (ix1 p) k)) = _
  rw [ofBits_neg_inf]
  exact congrArg (fun f => (Finset.univ : Finset (Fin 40)).fold max (⊥ : EReal) f) (funext fun k => congrArg src (lift_row h p k))

/-- The block's sum along the columns, at row `p`: the sum of the row's forty entries. -/
theorem rowSum_block (src : FVec Ideal S10000x40 .f32) (h : S10000x40.Reduces [1] S10000) (hφ : FKind.Formats .f32)
    (hacc : (0x00000000#32 : BitVec 32) = 0x00000000#32) (p : Fin 10000) :
    multiReduction (F := Ideal) .add [1] S10000 src 0x00000000#32 h hφ hacc (ix1 p) = ∑ k : Fin 40, src (ix2 p k) := by
  refine (Ideal.multiReduction_add_single src 0x00000000#32 h hφ hacc (ix1 p)).trans ?_
  show ∑ k : Fin 40, src (h.lift (ix1 p) k) = _
  simp only [lift_row]

/-! ## The body's arithmetic at an entry of a block -/

/-- At entry `(p, q)` the body leaves the entry shifted by its row's maximum, less the logarithm of the row's sum
    of exponentials of the shifted entries. -/
theorem pay_apply (x0 : Vec Ideal S10000x40 .f32) (p : Fin 10000) (q : Fin 40) :
    k2_pay1 x0 (ix2 p q)
      = (x0 (ix2 p q) - (Finset.univ : Finset (Fin 40)).fold max (⊥ : EReal) (fun k => x0 (ix2 p k)))
        - Ideal.log (∑ k : Fin 40, Ideal.exp (x0 (ix2 p k) - (Finset.univ : Finset (Fin 40)).fold max (⊥ : EReal) (fun k => x0 (ix2 p k)))) := by
  unfold k2_pay1
  dsimp only
  rw [subf_apply, subf_apply, shapeCast_self]
  rw [broadcastTo_a1_ab_apply, broadcastTo_a1_ab_apply, shapeCast_a_a1_apply, rowMax_block, vlog_apply, shapeCast_a_a1_apply, rowSum_block]
  refine congrArg (fun s => _ - Ideal.log s) (Finset.sum_congr rfl fun k _ => ?_)
  rw [vexp_apply, subf_apply, broadcastTo_a1_ab_apply, shapeCast_a_a1_apply, rowMax_block]

/-! ## From a block to the same rows of the whole array -/

theorem hz : (![0, 0] : Fin 2 → Nat) = fun _ => 0 := funext fun a => by fin_cases a <;> rfl

/-- What the body leaves in the output block, at entry `(p, q)`: the payload of the input block. -/
theorem out_apply (x0 : Vec Ideal S10000x40 .f32) (p : Fin 10000) (q : Fin 40) :
    out2_1 x0 (ix2 p q)
      = (x0 (ix2 p q) - (Finset.univ : Finset (Fin 40)).fold max (⊥ : EReal) (fun k => x0 (ix2 p k)))
        - Ideal.log (∑ k : Fin 40, Ideal.exp (x0 (ix2 p k) - (Finset.univ : Finset (Fin 40)).fold max (⊥ : EReal) (fun k => x0 (ix2 p k)))) := by
  unfold out2_1
  rw [View.canon_unit_zero hz]
  simp only [View.ld_unit_zero (S := S10000x40) hz]
  exact pay_apply x0 p q

/-- If a block holds rows `10000 n … 10000 n + 9999` of an array, the body leaves in the output block the same rows
    of the array's log-softmax: every step of the body stays within one row. -/
theorem out_rows (a : S100000x40.Idx → EReal) (x0 : Vec Ideal S10000x40 .f32) (n : ℕ) (hn : n < 10)
    (hx : ∀ (p : Fin 10000) (k : Fin 40), x0 (ix2 p k) = a (ix2 (⟨10000 * n + p.val, by omega⟩ : Fin 100000) k))
    (p : Fin 10000) (q : Fin 40) :
    out2_1 x0 (ix2 p q) = logSoftmax a (ix2 (⟨10000 * n + p.val, by omega⟩ : Fin 100000) q) := by
  rw [out_apply, logSoftmax_apply]
  unfold rowMax
  simp only [hx]

/-- The printed index maps over the grid: point `t` takes block `(t, 0)` of its input and of its output. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, win2_0.index t (0 : Fin 2) = t.val ∧ win2_0.index t (1 : Fin 2) = 0
    ∧ win2_1.index t (0 : Fin 2) = t.val ∧ win2_1.index t (1 : Fin 2) = 0)

section Region
variable (V : (c : Dev nD) → (b : Ref sig .tc) → Buf (Elt Ideal) ((c : Thread nD τ).loc b))

/-- The input block at point `t` holds rows `10000 t … 10000 t + 9999` of the array the region finds. -/
theorem iblk_rows (c : Dev nD) (t : Fin cfg2.N) (p : Fin 10000) (k : Fin 40) (hr : 10000 * t.val + p.val < 100000) :
    (iblk2 (F := Ideal) V c 0 t : Vec Ideal S10000x40 .f32) (ix2 p k)
      = (V c main_v57 : S100000x40.Idx → EReal) (ix2 (⟨10000 * t.val + p.val, hr⟩ : Fin 100000) k) := by
  obtain ⟨e0, e1, -, -⟩ := idx_facts t
  unfold iblk2
  rw [View.read_apply]
  show (V c main_v57 : S100000x40.Idx → EReal) _ = (V c main_v57 : S100000x40.Idx → EReal) _
  congr 1
  funext a
  apply Fin.ext
  match a with
  | ⟨0, _⟩ => show win2_0.index t (0 : Fin 2) * 10000 + 1 * p.val = 10000 * t.val + p.val; rw [e0]; omega
  | ⟨1, _⟩ => show win2_0.index t (1 : Fin 2) * 40 + 1 * k.val = k.val; rw [e1]; omega
end Region

section Region
variable (V : (c : Dev nD) → (b : Ref sig .tc) → Buf (Elt Ideal) ((c : Thread nD τ).loc b))

/-- Entry `(p, q)` of the output block at point `t` sits at row `10000 t + p`, column `q` of the array. -/
theorem oblk_emb (t : Fin cfg2.N) (p : Fin 10000) (q : Fin 40) (hr : 10000 * t.val + p.val < 100000) :
    (((cfg2.win 1).blk t).view.emb (ix2 p q) : S100000x40.Idx) = ix2 (⟨10000 * t.val + p.val, hr⟩ : Fin 100000) q := by
  obtain ⟨-, -, e2, e3⟩ := idx_facts t
  funext a
  apply Fin.ext
  match a with
  | ⟨0, _⟩ => show win2_1.index t (0 : Fin 2) * 10000 + 1 * p.val = 10000 * t.val + p.val; rw [e2]; omega
  | ⟨1, _⟩ => show win2_1.index t (1 : Fin 2) * 40 + 1 * q.val = q.val; rw [e3]; omega

/-- What point `t` writes back is block `t` of the log-softmax of the array the region finds. -/
theorem flushed_eq (c : Dev nD) (t : Fin cfg2.N) :
    (dat2 (F := Ideal) V c).flushed 1 t
      = ((cfg2.win 1).blk t).view.read (Elt Ideal) (logSoftmax (V c main_v57 : S100000x40.Idx → EReal)) := by
  have hN : cfg2.N = 10 := N_2
  have ht : t.val < 10 := by have := t.isLt; omega
  show (cfg2.win 1).cut (grid2.coords t) ((dat2 V c).after 1 t) = _
  rw [after2_1]
  funext j
  obtain ⟨p, q, rfl⟩ : ∃ (p : Fin 10000) (q : Fin 40), j = ix2 p q := ⟨j 0, j 1, eq_ix2 j⟩
  show out2_1 (iblk2 V c 0 t) (ix2 p q)
    = logSoftmax (V c main_v57 : S100000x40.Idx → EReal) (((cfg2.win 1).blk t).view.emb (ix2 p q))
  rw [oblk_emb t p q (by omega)]
  exact out_rows (V c main_v57) (iblk2 V c 0 t) t.val ht (fun p k => iblk_rows V c t p k (by omega)) p q

/-- An index of the array is in point `t`'s output block iff each coordinate is in the block's range on its axis. -/
theorem mem_blk (t : Fin cfg2.N) (i : S100000x40.Idx) :
    i ∈ ((cfg2.win 1).blk t).view.set ↔ ∀ a : Fin 2, win2_1.index t a * S10000x40.size a ≤ (i a).val
      ∧ (i a).val < win2_1.index t a * S10000x40.size a + S10000x40.size a := by
  show i ∈ ((View.whole main_v58).slice (win2_1.rect t)).set ↔ _
  rw [View.set_slice_whole, Rect.mem_set_unit]
  exact Iff.rfl

/-- Row `r` of the array is in the output block of point `⌊r / 10000⌋`: the ten blocks tile the array. -/
theorem cover (i : S100000x40.Idx) :
    ∃ t : Fin cfg2.N, (cfg2.win 1).flush t = true ∧ i ∈ ((cfg2.win 1).blk t).view.set := by
  have hN : cfg2.N = 10 := N_2
  have hi0 : (i 0).val < 100000 := (i 0).isLt
  have hi1 : (i 1).val < 40 := (i 1).isLt
  obtain ⟨t, ht⟩ : ∃ t : Fin cfg2.N, t.val = (i 0).val / 10000 := ⟨⟨(i 0).val / 10000, by rw [hN]; omega⟩, rfl⟩
  obtain ⟨-, -, e2, e3⟩ := idx_facts t
  refine ⟨t, flush2_1 t, ?_⟩
  rw [mem_blk]
  intro a
  match a with
  | ⟨0, _⟩ =>
    show win2_1.index t (0 : Fin 2) * 10000 ≤ (i 0).val ∧ (i 0).val < win2_1.index t (0 : Fin 2) * 10000 + 10000
    rw [e2, ht]; omega
  | ⟨1, _⟩ =>
    show win2_1.index t (1 : Fin 2) * 40 ≤ (i 1).val ∧ (i 1).val < win2_1.index t (1 : Fin 2) * 40 + 40
    rw [e3]; omega

end Region

end Cert.Gcn.Reg2

namespace Cert.Gcn

open Idealize.ShloMosaic Idealize.ShloMosaic.TcCoe Idealize.SL.Sem
open Idealize.ShloMosaic.Pipeline (Dat)
open Cert.KernelIdeal Cert.KernelIdeal.Gen

/-- The array the region leaves is the log-softmax of the array it finds: every point writes back its block of that
    function, and the blocks cover the array. -/
theorem reg2_value (V : (c : Dev nD) → (b : Ref sig .tc) → Buf (Elt Ideal) ((c : Thread nD τ).loc b)) (c : Dev nD) :
    (dat2 (F := Ideal) V c).arrAt 1 cfg2.N = logSoftmax (V c main_v57) :=
  (dat2 V c).arrAt_eq_of_cover 1 _ (fun t _ => Reg2.flushed_eq V c t) Reg2.cover

end Cert.Gcn

end
-- ==== Proof.KValue.lean ====
/-
  The idealized kernel program's result as one function of its six inputs.

  The last region is the log-softmax kernel: it leaves, in the result buffer, the row-wise log-softmax of the array it
  finds, and that array is the second aggregation of the second dense step of the first aggregation of the first dense
  step — the specification's `out` of the launched inputs.
-/
import proofs.«115427_j1846835937364_1_alg».proof.Proof.KHost
import proofs.«115427_j1846835937364_1_alg».proof.Proof.Reg2

set_option maxRecDepth 16384

noncomputable section
namespace Cert.Gcn
open Cert.KernelIdeal Cert.KernelIdeal.Gen Idealize.ShloMosaic Idealize.ShloMosaic.TcCoe Idealize.SL.Sem

/-- At the last boundary of the run the result buffer holds `out` of the six inputs as launched. -/
theorem kernel_value (m : (ℓ : Loc nD τ sig) → Buf (Elt Ideal) ℓ) (ρ : Dev nD → PrngReg) (c : Dev nD) :
    W6 m ρ c (Proc.devRef .tc main_v58)
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (W6_arr m ρ c 1).trans ((reg2_value (V5 m ρ) c).trans ?_)
  show logSoftmax (W5 m ρ c (Proc.devRef .tc main_v57)) = _
  rw [KHost.b5_v57]
  rfl

end Cert.Gcn

end
-- ==== Proof.RefOps.lean ====
/-
  The reference program's three dense steps, each as the whole-array composition of host operations that the
  reference applies: the product with the weights plus the broadcast bias; the same after a rectification; and the
  row-wise log-softmax in its shifted form (row maximum, shift, exponential, row sum, logarithm, shift).  They are named
  here so that the reading of the reference's run and the index-by-index reading of these steps speak of one term.
-/
import proofs.«115427_j1846835937364_1_alg».proof.ReferenceIdeal
import Idealize.ShloMosaic.PureOps.Ideal

noncomputable section

namespace Cert.Gcn

open Idealize.ShloMosaic Idealize.ShloMosaic.TcCoe Cert.ReferenceIdeal

variable {F : FTy → Type} [FloatOps F] [Cert.ReferenceIdeal.Facts₀]
open Cert.ReferenceIdeal.Facts₀

/-- `x · W + b` as the reference writes it: a `dot_general`, the bias broadcast to a row and then down the rows, a sum. -/
def refLin (x : (⟨S100000x128, .f32⟩ : BufTy).Contents (Elt F)) (W : (⟨S128x64, .f32⟩ : BufTy).Contents (Elt F))
    (b : (⟨S64, .f32⟩ : BufTy).Contents (Elt F)) : (⟨S100000x64, .f32⟩ : BufTy).Contents (Elt F) :=
  addf (Host.dotGeneral dot_S100000x128_S128x64_S100000x64_1_0_0_1_n_n none x W)
    (broadcastInDim S100000x64 ![0, 1] bcast_S1x64_S100000x64_0_1 (broadcastInDim S1x64 ![1] bcast_S64_S1x64_1 b))

/-- `max a 0 · W + b` as the reference writes it. -/
def refReluLin (a : (⟨S100000x64, .f32⟩ : BufTy).Contents (Elt F)) (W : (⟨S64x40, .f32⟩ : BufTy).Contents (Elt F))
    (b : (⟨S40, .f32⟩ : BufTy).Contents (Elt F)) : (⟨S100000x40, .f32⟩ : BufTy).Contents (Elt F) :=
  addf (Host.dotGeneral dot_S100000x64_S64x40_S100000x40_1_0_0_1_n_n none
      (maximumf a (broadcastInDim S100000x64 ![] bcast_S_S100000x64 (constant S_ .f32 0x00000000#32))) W)
    (broadcastInDim S100000x40 ![0, 1] bcast_S1x40_S100000x40_0_1 (broadcastInDim S1x40 ![1] bcast_S40_S1x40_1 b))

/-- The shifted value `a − M`, `M` the row maximum (a max-reduce from −∞, joined once more with −∞, broadcast back). -/
def refShifted (a : (⟨S100000x40, .f32⟩ : BufTy).Contents (Elt F)) : (⟨S100000x40, .f32⟩ : BufTy).Contents (Elt F) :=
  subf a (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf a (constant S_ .f32 0xFF800000#32) reducesTo_S100000x40_S100000_d1 h_S_))))

/-- The row-wise log-softmax as the reference writes it: the shifted value minus the logarithm of the row sum of its
    exponentials. -/
def refLogSoftmax (a : (⟨S100000x40, .f32⟩ : BufTy).Contents (Elt F)) : (⟨S100000x40, .f32⟩ : BufTy).Contents (Elt F) :=
  subf (refShifted a) (broadcastInDim S100000x40 ![0, 1] bcast_S100000x1_S100000x40_0_1
    (Host.log (broadcastInDim S100000x1 ![0] bcast_S100000_S100000x1_0
      (Host.reduceAdd (Host.exp (refShifted a)) (constant S_ .f32 0x00000000#32) reducesTo_S100000x40_S100000_d1 h_S_))))

end Cert.Gcn

end
-- ==== Proof.RefChunks.lean ====
/-
  The reference program's run, read in consecutive stretches of its 121 host operations.

  The run leaves every buffer at the fold of the operations over the launch contents.  The fold of a concatenation is
  the fold of the second list from the fold of the first, so the result buffer is read stretch by stretch, each stretch
  from ANY contents `U`: the edge sources and destinations; the first dense step; the edge weights; the first
  aggregation; the rectified second dense step; the edge weights once more (the reference computes them twice, from the
  same sources and destinations, so the two are one value); the second aggregation; the log-softmax in six short pieces (row maximum, its join with −∞, the shift, the row sum of exponentials, its logarithm, the final difference).  Between the
  stretches nothing writes the buffers a later stretch reads.  The host steps shared with the kernel program are the
  specification's whole-array functions and are never opened; the dense steps are the named compositions `refLin`,
  `refReluLin`, `refLogSoftmax`.
-/
import proofs.«115427_j1846835937364_1_alg».proof.Proof.Spec
import proofs.«115427_j1846835937364_1_alg».proof.Proof.RefOps
import proofs.«115427_j1846835937364_1_alg».proof.Proof.RefRun
import proofs.«115427_j1846835937364_1_alg».proof.Proof.Gen.KernelIdeal
import Idealize.ShloMosaic.Lib.StableHlo.Run

set_option maxRecDepth 16384

noncomputable section
namespace Cert.Gcn.RefChunks
open Cert.Gcn Cert.ReferenceIdeal Cert.ReferenceIdeal.Gen Idealize.ShloMosaic Idealize.ShloMosaic.TcCoe Idealize.SL.Sem Idealize.ShloMosaic.StableHlo

section Lists
variable {F : FTy → Type} [FloatOps F]

/-- The edge sources and destinations: the two rows of the edge list, each followed by every node's own number. -/
abbrev c0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The first layer's product with the weights plus the bias. -/
abbrev c1 : List (HloOp τ sig (Elt F)) :=
  [ binary main_arg0 main_arg2 main_v7 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v8 (broadcastInDim S1x64 ![1] bcast_S64_S1x64_1 : (⟨S64, .f32⟩ : BufTy).Contents (Elt F) → (⟨S1x64, .f32⟩ : BufTy).Contents (Elt F)),
    unary main_v8 main_v9 (broadcastInDim S100000x64 ![0, 1] bcast_S1x64_S100000x64_0_1 : (⟨S1x64, .f32⟩ : BufTy).Contents (Elt F) → (⟨S100000x64, .f32⟩ : BufTy).Contents (Elt F)),
    binary main_v7 main_v9 main_v10 (addf : (⟨S100000x64, .f32⟩ : BufTy).Contents (Elt F) → (⟨S100000x64, .f32⟩ : BufTy).Contents (Elt F) → (⟨S100000x64, .f32⟩ : BufTy).Contents (Elt F)) ]

/-- The edge weights: degrees by a scatter-add of ones, their inverse square roots gathered at both ends, multiplied. -/
abbrev c2 : List (HloOp τ sig (Elt F)) :=
  [ nullary main_cst (constant S_ .f32 0x3F800000#32),
    unary main_cst main_v11 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v12 (broadcastInDim S100000 ![] bcast_S_S100000 : (⟨S_, .f32⟩ : BufTy).Contents (Elt F) → (⟨S100000, .f32⟩ : BufTy).Contents (Elt F)),
    unary main_v3 main_v13 (broadcastInDim S1700000x1 ![0] bcast_S1700000_S1700000x1_0 : (⟨S1700000, .i32⟩ : BufTy).Contents (Elt F) → (⟨S1700000x1, .i32⟩ : BufTy).Contents (Elt F)),
    ternary main_v12 main_v13 main_v11 main_v14 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0xBF000000#32),
    unary main_cst_1 main_v15 (broadcastInDim S100000 ![] bcast_S_S100000 : (⟨S_, .f32⟩ : BufTy).Contents (Elt F) → (⟨S100000, .f32⟩ : BufTy).Contents (Elt F)),
    binary main_v14 main_v15 main_v16 (Host.powf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The first aggregation: rows gathered at the sources, scaled by the edge weights, added at the destinations. -/
abbrev c3 : List (HloOp τ sig (Elt F)) :=
  [ unary main_v31 main_v32 (broadcastInDim S1700000x1 ![0] bcast_S1700000_S1700000x1_0 : (⟨S1700000, .f32⟩ : BufTy).Contents (Elt F) → (⟨S1700000x1, .f32⟩ : BufTy).Contents (Elt F)),
    nullary main_c_5 (constantI S_ 32 0#32),
    unary main_c_5 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v10 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v32 main_v40 (broadcastInDim S1700000x64 ![0, 1] bcast_S1700000x1_S1700000x64_0_1 : (⟨S1700000x1, .f32⟩ : BufTy).Contents (Elt F) → (⟨S1700000x64, .f32⟩ : BufTy).Contents (Elt F)),
    binary main_v40 main_v39 main_v41 (mulf : (⟨S1700000x64, .f32⟩ : BufTy).Contents (Elt F) → (⟨S1700000x64, .f32⟩ : BufTy).Contents (Elt F) → (⟨S1700000x64, .f32⟩ : BufTy).Contents (Elt F)),
    nullary main_cst_7 (constant S_ .f32 0x00000000#32),
    unary main_cst_7 main_v42 (broadcastInDim S100000x64 ![] bcast_S_S100000x64 : (⟨S_, .f32⟩ : BufTy).Contents (Elt F) → (⟨S100000x64, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The rectification and the second layer's product with the weights plus the bias. -/
abbrev c45 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v44) (TRef.of (T := ⟨S100000x64, .f32⟩) main_call0_v0) (TRef.of (T := ⟨S100000x64, .f32⟩) main_v45) maximumf,
    binary main_v45 main_arg4 main_v46 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg5 main_v47 (broadcastInDim S1x40 ![1] bcast_S40_S1x40_1 : (⟨S40, .f32⟩ : BufTy).Contents (Elt F) → (⟨S1x40, .f32⟩ : BufTy).Contents (Elt F)),
    unary main_v47 main_v48 (broadcastInDim S100000x40 ![0, 1] bcast_S1x40_S100000x40_0_1 : (⟨S1x40, .f32⟩ : BufTy).Contents (Elt F) → (⟨S100000x40, .f32⟩ : BufTy).Contents (Elt F)),
    binary main_v46 main_v48 main_v49 (addf : (⟨S100000x40, .f32⟩ : BufTy).Contents (Elt F) → (⟨S100000x40, .f32⟩ : BufTy).Contents (Elt F) → (⟨S100000x40, .f32⟩ : BufTy).Contents (Elt F)) ]

/-- The edge weights, computed a second time by the reference. -/
abbrev c6 : List (HloOp τ sig (Elt F)) :=
  [ nullary main_cst_8 (constant S_ .f32 0x3F800000#32),
    unary main_cst_8 main_v50 (broadcastInDim S1700000 ![] bcast_S_S1700000 : (⟨S_, .f32⟩ : BufTy).Contents (Elt F) → (⟨S1700000, .f32⟩ : BufTy).Contents (Elt F)),
    nullary main_cst_9 (constant S_ .f32 0x00000000#32),
    unary main_cst_9 main_v51 (broadcastInDim S100000 ![] bcast_S_S100000 : (⟨S_, .f32⟩ : BufTy).Contents (Elt F) → (⟨S100000, .f32⟩ : BufTy).Contents (Elt F)),
    unary main_v3 main_v52 (broadcastInDim S1700000x1 ![0] bcast_S1700000_S1700000x1_0 : (⟨S1700000, .i32⟩ : BufTy).Contents (Elt F) → (⟨S1700000x1, .i32⟩ : BufTy).Contents (Elt F)),
    ternary main_v51 main_v52 main_v50 main_v53 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_10 (constant S_ .f32 0xBF000000#32),
    unary main_cst_10 main_v54 (broadcastInDim S100000 ![] bcast_S_S100000 : (⟨S_, .f32⟩ : BufTy).Contents (Elt F) → (⟨S100000, .f32⟩ : BufTy).Contents (Elt F)),
    binary main_v53 main_v54 main_v55 (Host.powf : (⟨S100000, .f32⟩ : BufTy).Contents (Elt F) → (⟨S100000, .f32⟩ : BufTy).Contents (Elt F) → (⟨S100000, .f32⟩ : BufTy).Contents (Elt F)),
    nullary main_c_11 (constantI S_ 32 0#32),
    unary main_c_11 main_v56 (broadcastInDim S1700000 ![] bcast_S_S1700000 : (⟨S_, .i32⟩ : BufTy).Contents (Elt F) → (⟨S1700000, .i32⟩ : BufTy).Contents (Elt F)),
    binary main_v3 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v58 (broadcastInDim S1700000 ![] bcast_S_S1700000 : (⟨S_, .i32⟩ : BufTy).Contents (Elt F) → (⟨S1700000, .i32⟩ : BufTy).Contents (Elt F)),
    binary main_v3 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v3 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v55 main_v61 main_v62 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v6 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v6 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v6 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v55 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v62 main_v69 main_v70 (mulf : (⟨S1700000, .f32⟩ : BufTy).Contents (Elt F) → (⟨S1700000, .f32⟩ : BufTy).Contents (Elt F) → (⟨S1700000, .f32⟩ : BufTy).Contents (Elt F)) ]

/-- The second aggregation. -/
abbrev c7 : List (HloOp τ sig (Elt F)) :=
  [ unary main_v70 main_v71 (broadcastInDim S1700000x1 ![0] bcast_S1700000_S1700000x1_0 : (⟨S1700000, .f32⟩ : BufTy).Contents (Elt F) → (⟨S1700000x1, .f32⟩ : BufTy).Contents (Elt F)),
    nullary main_c_15 (constantI S_ 32 0#32),
    unary main_c_15 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v49 main_v77 main_v78 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v71 main_v79 (broadcastInDim S1700000x40 ![0, 1] bcast_S1700000x1_S1700000x40_0_1 : (⟨S1700000x1, .f32⟩ : BufTy).Contents (Elt F) → (⟨S1700000x40, .f32⟩ : BufTy).Contents (Elt F)),
    binary main_v79 main_v78 main_v80 (mulf : (⟨S1700000x40, .f32⟩ : BufTy).Contents (Elt F) → (⟨S1700000x40, .f32⟩ : BufTy).Contents (Elt F) → (⟨S1700000x40, .f32⟩ : BufTy).Contents (Elt F)),
    nullary main_cst_17 (constant S_ .f32 0x00000000#32),
    unary main_cst_17 main_v81 (broadcastInDim S100000x40 ![] bcast_S_S100000x40 : (⟨S_, .f32⟩ : BufTy).Contents (Elt F) → (⟨S100000x40, .f32⟩ : BufTy).Contents (Elt F)),
    unary main_v6 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- The row maximum, as a max-reduce from −∞. -/
abbrev d1 : List (HloOp τ sig (Elt F)) :=
  [ TRef.nullary (TRef.of (T := ⟨S_, .f32⟩) main_call1_cst) (constant S_ .f32 0xFF800000#32),
    TRef.binary (TRef.of (T := ⟨S100000x40, .f32⟩) main_v83) (TRef.of (T := ⟨S_, .f32⟩) main_call1_cst) (TRef.of (T := ⟨S100000, .f32⟩) main_call1_v0) (fun x v => Host.reduce FloatOps.maximumf x v reducesTo_S100000x40_S100000_d1 h_S_) ]

/-- The row maximum joined once more with −∞. -/
abbrev d2 : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]

/-- The shift: the array less its row maximum broadcast back. -/
abbrev d3 : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v83) (TRef.of (T := ⟨S100000x40, .f32⟩) main_call1_v4) (TRef.of (T := ⟨S100000x40, .f32⟩) main_call1_v5) subf ]

/-- The row sum of the exponentials of the shifted array. -/
abbrev d4 : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_) ]

/-- The logarithm of the row sum, broadcast back. -/
abbrev d5 : List (HloOp τ sig (Elt F)) :=
  [ TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1) ]

/-- The shifted array less that logarithm. -/
abbrev d6 : List (HloOp τ sig (Elt F)) :=
  [ TRef.binary (TRef.of (T := ⟨S100000x40, .f32⟩) main_call1_v5) (TRef.of (T := ⟨S100000x40, .f32⟩) main_call1_v10) (TRef.of (T := ⟨S100000x40, .f32⟩) main_v84) subf ]

set_option maxRecDepth 65536 in
/-- The program's operation list is the thirteen stretches in order. -/
theorem ops_eq : (Cert.ReferenceIdeal.ValueP.ops (F := F)) = c0 ++ c1 ++ c2 ++ c3 ++ c45 ++ c6 ++ c7 ++ d1 ++ d2 ++ d3 ++ d4 ++ d5 ++ d6 := rfl

end Lists

/-! ## Each stretch from any contents `U` -/

section Stretches
variable (U : Valuation τ sig (Elt Ideal))

theorem c0_v3 : after (c0 (F := Ideal)) U (Proc.devRef .tc main_v3) = srcOf (U (Proc.devRef .tc main_arg1)) := by
  after_results_simp <;> rfl
theorem c0_v6 : after (c0 (F := Ideal)) U (Proc.devRef .tc main_v6) = dstOf (U (Proc.devRef .tc main_arg1)) := by
  after_results_simp <;> rfl
theorem c1_v10 : after (c1 (F := Ideal)) U (Proc.devRef .tc main_v10) = refLin (U (Proc.devRef .tc main_arg0)) (U (Proc.devRef .tc main_arg2)) (U (Proc.devRef .tc main_arg3)) := by
  after_results_simp <;> rfl
set_option maxHeartbeats 400000 in
theorem c2_v31 : after (c2 (F := Ideal)) U (Proc.devRef .tc main_v31) = normOf (U (Proc.devRef .tc main_v3)) (U (Proc.devRef .tc main_v6)) := by
  unfold normOf dinvOf wrapCol
  after_results_simp
  all_goals rfl
set_option maxHeartbeats 400000 in
theorem c3_v44 : after (c3 (F := Ideal)) U (Proc.devRef .tc main_v44) = agg64 (U (Proc.devRef .tc main_v10)) (U (Proc.devRef .tc main_v3)) (U (Proc.devRef .tc main_v6)) (U (Proc.devRef .tc main_v31)) := by
  unfold agg64 wrapCol
  after_results_simp
  all_goals rfl
theorem c45_v49 : after (c45 (F := Ideal)) U (Proc.devRef .tc main_v49) = refReluLin (U (Proc.devRef .tc main_v44)) (U (Proc.devRef .tc main_arg4)) (U (Proc.devRef .tc main_arg5)) := by
  after_results_simp <;> rfl
set_option maxHeartbeats 400000 in
theorem c6_v70 : after (c6 (F := Ideal)) U (Proc.devRef .tc main_v70) = normOf (U (Proc.devRef .tc main_v3)) (U (Proc.devRef .tc main_v6)) := by
  unfold normOf dinvOf wrapCol
  after_results_simp
  all_goals rfl
set_option maxHeartbeats 400000 in
theorem c7_v83 : after (c7 (F := Ideal)) U (Proc.devRef .tc main_v83) = agg40 (U (Proc.devRef .tc main_v49)) (U (Proc.devRef .tc main_v3)) (U (Proc.devRef .tc main_v6)) (U (Proc.devRef .tc main_v70)) := by
  unfold agg40 wrapCol
  after_results_simp
  all_goals rfl
/-! The log-softmax, piece by piece: each piece a whole-array function of what it reads. -/

/-- The row maximum as the reference takes it: a max-reduce over the columns from −∞. -/
def rowMaxRef (a : FVec Ideal S100000x40 .f32) : FVec Ideal S100000 .f32 :=
  Host.reduce FloatOps.maximumf a (constant (F := Ideal) S_ .f32 0xFF800000#32) reducesTo_S100000x40_S100000_d1 h_S_
/-- The join with a broadcast −∞. -/
def joinBot (v : FVec Ideal S100000 .f32) : FVec Ideal S100000 .f32 :=
  maximumf (broadcastInDim S100000 ![] bcast_S_S100000 (constant (F := Ideal) S_ .f32 0xFF800000#32)) v
/-- The array less a per-row value broadcast to a column and across the row. -/
def shiftBy (a : FVec Ideal S100000x40 .f32) (mx : FVec Ideal S100000 .f32) : FVec Ideal S100000x40 .f32 :=
  subf a (broadcastInDim S100000x40 ![0, 1] bcast_S100000x1_S100000x40_0_1 (broadcastInDim S100000x1 ![0] bcast_S100000_S100000x1_0 mx))
/-- The row sum of the exponentials. -/
def rowSumExp (s : FVec Ideal S100000x40 .f32) : FVec Ideal S100000 .f32 :=
  Host.reduceAdd (Host.exp s) (constant (F := Ideal) S_ .f32 0x00000000#32) reducesTo_S100000x40_S100000_d1 h_S_
/-- The logarithm of a per-row value, broadcast to a column and across the row. -/
def logBack (v : FVec Ideal S100000 .f32) : FVec Ideal S100000x40 .f32 :=
  broadcastInDim S100000x40 ![0, 1] bcast_S100000x1_S100000x40_0_1 (Host.log (broadcastInDim S100000x1 ![0] bcast_S100000_S100000x1_0 v))
/-- A difference of two arrays. -/
def lessBy (s l : FVec Ideal S100000x40 .f32) : FVec Ideal S100000x40 .f32 := subf s l

/-- The reference's log-softmax is these pieces composed. -/
theorem refLogSoftmax_pieces (a : FVec Ideal S100000x40 .f32) :
    refLogSoftmax (F := Ideal) a = lessBy (shiftBy a (joinBot (rowMaxRef a))) (logBack (rowSumExp (shiftBy a (joinBot (rowMaxRef a))))) := rfl

-- the two reductions stay closed while the two sides of a piece are compared: only their operands are matched
attribute [local irreducible] Host.reduce Host.reduceAdd in
theorem d1_v0 : after (d1 (F := Ideal)) U (Proc.devRef .tc main_call1_v0) = rowMaxRef (U (Proc.devRef .tc main_v83)) := by
  unfold rowMaxRef
  after_results_simp
  all_goals rfl
theorem d1_v83 : after (d1 (F := Ideal)) U (Proc.devRef .tc main_v83) = U (Proc.devRef .tc main_v83) := by
  after_results_simp <;> rfl
theorem d2_v2 : after (d2 (F := Ideal)) U (Proc.devRef .tc main_call1_v2) = joinBot (U (Proc.devRef .tc main_call1_v0)) := by
  unfold joinBot
  after_results_simp
  all_goals rfl
theorem d2_v83 : after (d2 (F := Ideal)) U (Proc.devRef .tc main_v83) = U (Proc.devRef .tc main_v83) := by
  after_results_simp <;> rfl
theorem d3_v5 : after (d3 (F := Ideal)) U (Proc.devRef .tc main_call1_v5) = shiftBy (U (Proc.devRef .tc main_v83)) (U (Proc.devRef .tc main_call1_v2)) := by
  unfold shiftBy
  after_results_simp
  all_goals rfl
attribute [local irreducible] Host.reduce Host.reduceAdd in
theorem d4_v7 : after (d4 (F := Ideal)) U (Proc.devRef .tc main_call1_v7) = rowSumExp (U (Proc.devRef .tc main_call1_v5)) := by
  unfold rowSumExp
  after_results_simp
  all_goals rfl
theorem d4_v5 : after (d4 (F := Ideal)) U (Proc.devRef .tc main_call1_v5) = U (Proc.devRef .tc main_call1_v5) := by
  after_results_simp <;> rfl
theorem d5_v10 : after (d5 (F := Ideal)) U (Proc.devRef .tc main_call1_v10) = logBack (U (Proc.devRef .tc main_call1_v7)) := by
  unfold logBack
  after_results_simp
  all_goals rfl
theorem d5_v5 : after (d5 (F := Ideal)) U (Proc.devRef .tc main_call1_v5) = U (Proc.devRef .tc main_call1_v5) := by
  after_results_simp <;> rfl
theorem d6_v84 : after (d6 (F := Ideal)) U (Proc.devRef .tc main_v84) = lessBy (U (Proc.devRef .tc main_call1_v5)) (U (Proc.devRef .tc main_call1_v10)) := by
  unfold lessBy
  after_results_simp
  all_goals rfl

theorem c0_arg0 : after (c0 (F := Ideal)) U (Proc.devRef .tc main_arg0) = U (Proc.devRef .tc main_arg0) := by
  after_results_simp <;> rfl
theorem c0_arg2 : after (c0 (F := Ideal)) U (Proc.devRef .tc main_arg2) = U (Proc.devRef .tc main_arg2) := by
  after_results_simp <;> rfl
theorem c0_arg3 : after (c0 (F := Ideal)) U (Proc.devRef .tc main_arg3) = U (Proc.devRef .tc main_arg3) := by
  after_results_simp <;> rfl
theorem c0_arg4 : after (c0 (F := Ideal)) U (Proc.devRef .tc main_arg4) = U (Proc.devRef .tc main_arg4) := by
  after_results_simp <;> rfl
theorem c0_arg5 : after (c0 (F := Ideal)) U (Proc.devRef .tc main_arg5) = U (Proc.devRef .tc main_arg5) := by
  after_results_simp <;> rfl
theorem c1_v3 : after (c1 (F := Ideal)) U (Proc.devRef .tc main_v3) = U (Proc.devRef .tc main_v3) := by
  after_results_simp <;> rfl
theorem c1_v6 : after (c1 (F := Ideal)) U (Proc.devRef .tc main_v6) = U (Proc.devRef .tc main_v6) := by
  after_results_simp <;> rfl
theorem c1_arg4 : after (c1 (F := Ideal)) U (Proc.devRef .tc main_arg4) = U (Proc.devRef .tc main_arg4) := by
  after_results_simp <;> rfl
theorem c1_arg5 : after (c1 (F := Ideal)) U (Proc.devRef .tc main_arg5) = U (Proc.devRef .tc main_arg5) := by
  after_results_simp <;> rfl
theorem c2_v3 : after (c2 (F := Ideal)) U (Proc.devRef .tc main_v3) = U (Proc.devRef .tc main_v3) := by
  after_results_simp <;> rfl
theorem c2_v6 : after (c2 (F := Ideal)) U (Proc.devRef .tc main_v6) = U (Proc.devRef .tc main_v6) := by
  after_results_simp <;> rfl
theorem c2_v10 : after (c2 (F := Ideal)) U (Proc.devRef .tc main_v10) = U (Proc.devRef .tc main_v10) := by
  after_results_simp <;> rfl
theorem c2_arg4 : after (c2 (F := Ideal)) U (Proc.devRef .tc main_arg4) = U (Proc.devRef .tc main_arg4) := by
  after_results_simp <;> rfl
theorem c2_arg5 : after (c2 (F := Ideal)) U (Proc.devRef .tc main_arg5) = U (Proc.devRef .tc main_arg5) := by
  after_results_simp <;> rfl
theorem c3_v3 : after (c3 (F := Ideal)) U (Proc.devRef .tc main_v3) = U (Proc.devRef .tc main_v3) := by
  after_results_simp <;> rfl
theorem c3_v6 : after (c3 (F := Ideal)) U (Proc.devRef .tc main_v6) = U (Proc.devRef .tc main_v6) := by
  after_results_simp <;> rfl
theorem c3_arg4 : after (c3 (F := Ideal)) U (Proc.devRef .tc main_arg4) = U (Proc.devRef .tc main_arg4) := by
  after_results_simp <;> rfl
theorem c3_arg5 : after (c3 (F := Ideal)) U (Proc.devRef .tc main_arg5) = U (Proc.devRef .tc main_arg5) := by
  after_results_simp <;> rfl
theorem c45_v3 : after (c45 (F := Ideal)) U (Proc.devRef .tc main_v3) = U (Proc.devRef .tc main_v3) := by
  after_results_simp <;> rfl
theorem c45_v6 : after (c45 (F := Ideal)) U (Proc.devRef .tc main_v6) = U (Proc.devRef .tc main_v6) := by
  after_results_simp <;> rfl
theorem c6_v3 : after (c6 (F := Ideal)) U (Proc.devRef .tc main_v3) = U (Proc.devRef .tc main_v3) := by
  after_results_simp <;> rfl
theorem c6_v6 : after (c6 (F := Ideal)) U (Proc.devRef .tc main_v6) = U (Proc.devRef .tc main_v6) := by
  after_results_simp <;> rfl
theorem c6_v49 : after (c6 (F := Ideal)) U (Proc.devRef .tc main_v49) = U (Proc.devRef .tc main_v49) := by
  after_results_simp <;> rfl

end Stretches

end Cert.Gcn.RefChunks

end
-- ==== Proof.RefDense.lean ====
/-
  The reference program's three dense steps, read index by index on the extended reals, are the specification's.

  A contraction over one axis is the sum over that axis's coordinates of the products of the operands' entries at
  `(r, k)` and `(k, j)`; a bias broadcast first to one row and then down the rows is read at `(r, j)` as the bias at
  `j`; the constant zero broadcast to the whole array is `0`, so the maximum with it is `max · 0`.  For the log-softmax,
  the reduction with a maximum body from −∞ over the forty entries of a row is the fold of `max` from −∞ over them, the
  further maximum with −∞ changes nothing, and the result broadcast to a column and back across the row is the row's
  maximum at every entry; the sum-reduction from the constant zero is the sum over the row; exponential and logarithm
  act entry by entry.
-/
import proofs.«115427_j1846835937364_1_alg».proof.Proof.Spec
import proofs.«115427_j1846835937364_1_alg».proof.Proof.RefOps
import proofs.«115427_j1846835937364_1_alg».proof.Proof.Gen.ReferenceIdeal
import proofs.«115427_j1846835937364_1_alg».proof.Proof.Gen.KernelIdeal
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.TcCoe Idealize.ShloMosaic.ValueIdx
open Cert.ReferenceIdeal Cert.ReferenceIdeal.Facts₀

/-! ## The operand indices of the two contractions

At result index `i` and contraction index `q` the left operand is read at `(i 0, q)` and the right one at `(q, i 1)`. -/

theorem dot1_lhs0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
theorem dot1_lhs1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem dot1_rhs0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem dot1_rhs1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

theorem dot2_lhs0 (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl
theorem dot2_lhs1 (i : S100000x40.Idx) (q : dot_S100000x64_S64x40_S100000x40_1_0_0_1_n_n.contr.Idx) :
    (dot_S100000x64_S64x40_S100000x40_1_0_0_1_n_n.lhsIdx i q 1).val = (q ⟨0, by decide⟩).val :=
  dot_S100000x64_S64x40_S100000x40_1_0_0_1_n_n.lhsIdx_val_of_single rfl i q
theorem dot2_rhs0 (i : S100000x40.Idx) (q : dot_S100000x64_S64x40_S100000x40_1_0_0_1_n_n.contr.Idx) :
    (dot_S100000x64_S64x40_S100000x40_1_0_0_1_n_n.rhsIdx i q 0).val = (q ⟨0, by decide⟩).val :=
  dot_S100000x64_S64x40_S100000x40_1_0_0_1_n_n.rhsIdx_val_of_single rfl i q
theorem dot2_rhs1 (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-! ## The two linear steps -/

/-- `x · W + b`: entry `(r, j)` is the sum over the 128 input features plus the bias of column `j`. -/
theorem refLin_eq (x : Cert.ReferenceIdeal.S100000x128.Idx → EReal) (W : Cert.ReferenceIdeal.S128x64.Idx → EReal)
    (b : Cert.ReferenceIdeal.S64.Idx → EReal) : refLin (F := Ideal) x W b = lin x W b := by
  funext i
  obtain ⟨r, j, rfl⟩ : ∃ (r : Fin 100000) (j : Fin 64), i = ix2 r j := ⟨i 0, i 1, eq_ix2 i⟩
  unfold refLin
  rw [addf_apply, lin_apply]
  refine congrArg₂ (· + ·) ?_ ?_
  · simp only [Host.dotGeneral]
    rw [Ideal.dotGeneral_apply, ← Equiv.sum_comp (contrEquiv1 dot_S100000x128_S128x64_S100000x64_1_0_0_1_n_n 128 rfl rfl).symm]
    refine Finset.sum_congr rfl fun k _ => ?_
    have hk := contrEquiv1_symm_val dot_S100000x128_S128x64_S100000x64_1_0_0_1_n_n 128 rfl rfl k
    have el : dot_S100000x128_S128x64_S100000x64_1_0_0_1_n_n.lhsIdx (ix2 r j) ((contrEquiv1 dot_S100000x128_S128x64_S100000x64_1_0_0_1_n_n 128 rfl rfl).symm k) = ix2 r k :=
      funext fun c => Fin.ext (by
        match c with
        | ⟨0, _⟩ => exact dot1_lhs0 _ _
        | ⟨1, _⟩ => exact (dot1_lhs1 _ _).trans hk)
    have er : dot_S100000x128_S128x64_S100000x64_1_0_0_1_n_n.rhsIdx (ix2 r j) ((contrEquiv1 dot_S100000x128_S128x64_S100000x64_1_0_0_1_n_n 128 rfl rfl).symm k) = ix2 k j :=
      funext fun c => Fin.ext (by
        match c with
        | ⟨0, _⟩ => exact (dot1_rhs0 _ _).trans hk
        | ⟨1, _⟩ => exact dot1_rhs1 _ _)
    rw [el, er]
  ·
    rw [broadcastInDim_apply _ bcast_S1x64_S100000x64_0_1 _ (ix2 r j) (ix2 (0 : Fin 1) j) (fun c => match c with
        | ⟨0, _⟩ => by show (0 : Nat) = if (1 : Nat) = 1 then 0 else r.val; rw [if_pos rfl]
        | ⟨1, _⟩ => by show j.val = if (64 : Nat) = 1 then 0 else j.val; rw [if_neg (by decide)]),
      broadcastInDim_apply _ bcast_S64_S1x64_1 b (ix2 (0 : Fin 1) j) (ix1 j) (fun c => match c with
        | ⟨0, _⟩ => by show j.val = if (64 : Nat) = 1 then 0 else j.val; rw [if_neg (by decide)])]

/-- `max a 0 · W + b`: the rectified entry is the maximum with the broadcast constant zero; entry `(r, j)` is the sum
    over the 64 hidden features plus the bias of column `j`. -/
theorem refReluLin_eq (a : Cert.ReferenceIdeal.S100000x64.Idx → EReal) (W : Cert.ReferenceIdeal.S64x40.Idx → EReal)
    (b : Cert.ReferenceIdeal.S40.Idx → EReal) : refReluLin (F := Ideal) a W b = reluLin a W b := by
  funext i
  obtain ⟨r, j, rfl⟩ : ∃ (r : Fin 100000) (j : Fin 40), i = ix2 r j := ⟨i 0, i 1, eq_ix2 i⟩
  unfold refReluLin
  rw [addf_apply, reluLin_apply]
  refine congrArg₂ (· + ·) ?_ ?_
  · simp only [Host.dotGeneral]
    rw [Ideal.dotGeneral_apply, ← Equiv.sum_comp (contrEquiv1 dot_S100000x64_S64x40_S100000x40_1_0_0_1_n_n 64 rfl rfl).symm]
    refine Finset.sum_congr rfl fun k _ => ?_
    have hk := contrEquiv1_symm_val dot_S100000x64_S64x40_S100000x40_1_0_0_1_n_n 64 rfl rfl k
    have el : dot_S100000x64_S64x40_S100000x40_1_0_0_1_n_n.lhsIdx (ix2 r j) ((contrEquiv1 dot_S100000x64_S64x40_S100000x40_1_0_0_1_n_n 64 rfl rfl).symm k) = ix2 r k :=
      funext fun c => Fin.ext (by
        match c with
        | ⟨0, _⟩ => exact dot2_lhs0 _ _
        | ⟨1, _⟩ => exact (dot2_lhs1 _ _).trans hk)
    have er : dot_S100000x64_S64x40_S100000x40_1_0_0_1_n_n.rhsIdx (ix2 r j) ((contrEquiv1 dot_S100000x64_S64x40_S100000x40_1_0_0_1_n_n 64 rfl rfl).symm k) = ix2 k j :=
      funext fun c => Fin.ext (by
        match c with
        | ⟨0, _⟩ => exact (dot2_rhs0 _ _).trans hk
        | ⟨1, _⟩ => exact dot2_rhs1 _ _)
    rw [el, er, maximumf_apply,
      broadcastInDim_apply _ bcast_S_S100000x64 _ (ix2 r k) ix0 (fun c => c.elim0), constant_apply, Ideal.ofBits_zero_f32]
  ·
    rw [broadcastInDim_apply _ bcast_S1x40_S100000x40_0_1 _ (ix2 r j) (ix2 (0 : Fin 1) j) (fun c => match c with
        | ⟨0, _⟩ => by show (0 : Nat) = if (1 : Nat) = 1 then 0 else r.val; rw [if_pos rfl]
        | ⟨1, _⟩ => by show j.val = if (40 : Nat) = 1 then 0 else j.val; rw [if_neg (by decide)]),
      broadcastInDim_apply _ bcast_S40_S1x40_1 b (ix2 (0 : Fin 1) j) (ix1 j) (fun c => match c with
        | ⟨0, _⟩ => by show j.val = if (40 : Nat) = 1 then 0 else j.val; rw [if_neg (by decide)])]

/-! ## The log-softmax -/

/-- The shifted entry: the row's maximum, taken as the fold of `max` from −∞ over the row's forty entries (joined once
    more with −∞, which changes nothing) and broadcast back over the row, is subtracted from every entry. -/
theorem refShifted_apply (a : Cert.ReferenceIdeal.S100000x40.Idx → EReal) (r : Fin 100000) (j : Fin 40) :
    refShifted (F := Ideal) a (ix2 r j) = a (ix2 r j) - rowMax a r := by
  unfold refShifted
  rw [subf_apply]
  refine congrArg (a (ix2 r j) - ·) ?_
  rw [broadcastInDim_apply _ bcast_S100000x1_S100000x40_0_1 _ (ix2 r j) (ix2 r (0 : Fin 1)) (fun c => match c with
        | ⟨0, _⟩ => by show r.val = if (100000 : Nat) = 1 then 0 else r.val; rw [if_neg (by decide)]
        | ⟨1, _⟩ => by show (0 : Nat) = if (1 : Nat) = 1 then 0 else (j).val; rw [if_pos rfl]),
      broadcastInDim_apply _ bcast_S100000_S100000x1_0 _ (ix2 r (0 : Fin 1)) (ix1 r) (fun c => match c with
        | ⟨0, _⟩ => by show r.val = if (100000 : Nat) = 1 then 0 else r.val; rw [if_neg (by decide)]),
      maximumf_apply, broadcastInDim_apply _ bcast_S_S100000 _ (ix1 r) ix0 (fun c => c.elim0), constant_apply]
  have h : S100000x40.Reduces [1] S100000 := by decide
  rw [Host.reduce_eq_fold_single (FloatOps.maximumf (F := Ideal) (φ := .f32)) a _ reducesTo_S100000x40_S100000_d1 h h_S_, constant_apply]
  have hbot : Ideal.ofBits .f32 0xFF800000#32 = (⊥ : EReal) := by simp [Ideal.ofBits, Ideal.ieee]
  rw [hbot]
  show max (⊥ : EReal) (Finset.fold max (⊥ : EReal) (a ∘ h.lift (ix1 r)) (Finset.univ : Finset (Fin 40))) = rowMax a r
  rw [max_bot_left]
  have hf : (a ∘ h.lift (ix1 r)) = fun k : Fin 40 => a (ix2 r k) :=
    funext fun k => congrArg a (funext fun c => Fin.ext (by match c with | ⟨0, _⟩ => rfl | ⟨1, _⟩ => rfl))
  exact congrArg (fun f => Finset.fold max (⊥ : EReal) f (Finset.univ : Finset (Fin 40))) hf

/-- The row-wise log-softmax: the shifted entry minus the logarithm of the sum, over the row, of the exponentials of the
    shifted entries (the sum starts from the constant zero; the logarithm is taken on a column and broadcast back). -/
theorem refLogSoftmax_eq (a : Cert.ReferenceIdeal.S100000x40.Idx → EReal) : refLogSoftmax (F := Ideal) a = logSoftmax a := by
  funext i
  obtain ⟨r, j, rfl⟩ : ∃ (r : Fin 100000) (j : Fin 40), i = ix2 r j := ⟨i 0, i 1, eq_ix2 i⟩
  unfold refLogSoftmax
  rw [subf_apply, refShifted_apply, logSoftmax_apply]
  refine congrArg ((a (ix2 r j) - rowMax a r) - ·) ?_
  rw [broadcastInDim_apply _ bcast_S100000x1_S100000x40_0_1 _ (ix2 r j) (ix2 r (0 : Fin 1)) (fun c => match c with
        | ⟨0, _⟩ => by show r.val = if (100000 : Nat) = 1 then 0 else r.val; rw [if_neg (by decide)]
        | ⟨1, _⟩ => by show (0 : Nat) = if (1 : Nat) = 1 then 0 else j.val; rw [if_pos rfl])]
  show FloatOps.hostUnary .log (broadcastInDim S100000x1 ![0] bcast_S100000_S100000x1_0
      (Host.reduceAdd (Host.exp (refShifted (F := Ideal) a)) (constant (F := Ideal) S_ .f32 0x00000000#32) reducesTo_S100000x40_S100000_d1 h_S_)
      (ix2 r (0 : Fin 1))) = _
  rw [Ideal.hostUnary_log_def,
    broadcastInDim_apply _ bcast_S100000_S100000x1_0 _ (ix2 r (0 : Fin 1)) (ix1 r) (fun c => match c with
        | ⟨0, _⟩ => by show r.val = if (100000 : Nat) = 1 then 0 else r.val; rw [if_neg (by decide)])]
  refine congrArg Ideal.log ?_
  have h : S100000x40.Reduces [1] S100000 := by decide
  simp only [Host.reduceAdd, Ideal.hostReduceAdd_def]
  rw [Ideal.hostReduceAdd_single reducesTo_S100000x40_S100000_d1 h, constant_apply, Ideal.ofBits_zero_f32, zero_add]
  show ∑ k : Fin 40, (Host.exp (F := Ideal) (φ := .f32) (refShifted (F := Ideal) a) (h.lift (ix1 r) k) : EReal)
    = ∑ k : Fin 40, Ideal.exp (a (ix2 r k) - rowMax a r)
  refine Finset.sum_congr rfl fun k _ => ?_
  have hk : h.lift (ix1 r) k = ix2 r k :=
    funext fun c => Fin.ext (by match c with | ⟨0, _⟩ => rfl | ⟨1, _⟩ => rfl)
  rw [hk]
  show FloatOps.hostUnary (F := Ideal) (φ := .f32) .exp (refShifted (F := Ideal) a (ix2 r k)) = _
  rw [Ideal.hostUnary_exp_def, refShifted_apply]

end Cert.Gcn

end
-- ==== Proof.RefValue.lean ====
/-
  The reference program's result as one function of its six inputs, and its arguments unchanged.

  The run leaves the result buffer at the fold of the 121 operations over the launch contents.  Read stretch by
  stretch, with every buffer a stretch needs traced back to the stretch that made it, the fold at the result buffer
  is the reference's log-softmax of the second aggregation of its second dense step of the first aggregation of its
  first dense step, over the edge sources, destinations and weights formed from the edge list; and the three dense
  steps, read index by index, are the specification's.  So the result is the specification's `out` of the inputs.
-/
import proofs.«115427_j1846835937364_1_alg».proof.Proof.RefChunks
import proofs.«115427_j1846835937364_1_alg».proof.Proof.RefDense

set_option maxRecDepth 16384

noncomputable section
namespace Cert.Gcn
open Cert.ReferenceIdeal Idealize.ShloMosaic Idealize.ShloMosaic.TcCoe Idealize.SL.Sem Idealize.ShloMosaic.StableHlo
open Cert.Gcn.RefChunks

/-- From any launch contents `L`, the fold of the reference's operations at the result buffer is `out` of `L`'s six
    argument arrays. -/
theorem ref_value (L : Valuation τ sig (Elt Ideal)) :
    after (Cert.ReferenceIdeal.ValueP.ops (F := Ideal)) L (Proc.devRef .tc main_v84)
      = out (L (Proc.devRef .tc main_arg0)) (L (Proc.devRef .tc main_arg1)) (L (Proc.devRef .tc main_arg2)) (L (Proc.devRef .tc main_arg3)) (L (Proc.devRef .tc main_arg4)) (L (Proc.devRef .tc main_arg5)) := by
  rw [ops_eq]
  simp only [StableHlo.after_append]
  rw [d6_v84, d5_v10, d5_v5, d4_v7, d4_v5, d3_v5, d2_v2, d2_v83, d1_v0, d1_v83, ← refLogSoftmax_pieces]
  rw [c7_v83]
  rw [c6_v70, c6_v49, c6_v3, c6_v6]
  rw [c45_v49, c45_v3, c45_v6]
  rw [c3_v44, c3_v3, c3_v6, c3_arg4, c3_arg5]
  rw [c2_v31, c2_v10, c2_v3, c2_v6, c2_arg4, c2_arg5]
  rw [c1_v10, c1_v3, c1_v6, c1_arg4, c1_arg5]
  rw [c0_v3, c0_v6, c0_arg0, c0_arg2, c0_arg3, c0_arg4, c0_arg5]
  rw [refLogSoftmax_eq, refReluLin_eq, refLin_eq]
  rfl

/-! ## No operation writes an argument -/

theorem ref_arg0 (L : Valuation τ sig (Elt Ideal)) :
    after (Cert.ReferenceIdeal.ValueP.ops (F := Ideal)) L (Proc.devRef .tc main_arg0) = L (Proc.devRef .tc main_arg0) := by
  after_results_simp <;> rfl
theorem ref_arg1 (L : Valuation τ sig (Elt Ideal)) :
    after (Cert.ReferenceIdeal.ValueP.ops (F := Ideal)) L (Proc.devRef .tc main_arg1) = L (Proc.devRef .tc main_arg1) := by
  after_results_simp <;> rfl
theorem ref_arg2 (L : Valuation τ sig (Elt Ideal)) :
    after (Cert.ReferenceIdeal.ValueP.ops (F := Ideal)) L (Proc.devRef .tc main_arg2) = L (Proc.devRef .tc main_arg2) := by
  after_results_simp <;> rfl
theorem ref_arg3 (L : Valuation τ sig (Elt Ideal)) :
    after (Cert.ReferenceIdeal.ValueP.ops (F := Ideal)) L (Proc.devRef .tc main_arg3) = L (Proc.devRef .tc main_arg3) := by
  after_results_simp <;> rfl
theorem ref_arg4 (L : Valuation τ sig (Elt Ideal)) :
    after (Cert.ReferenceIdeal.ValueP.ops (F := Ideal)) L (Proc.devRef .tc main_arg4) = L (Proc.devRef .tc main_arg4) := by
  after_results_simp <;> rfl
theorem ref_arg5 (L : Valuation τ sig (Elt Ideal)) :
    after (Cert.ReferenceIdeal.ValueP.ops (F := Ideal)) L (Proc.devRef .tc main_arg5) = L (Proc.devRef .tc main_arg5) := by
  after_results_simp <;> rfl

end Cert.Gcn

end
-- ==== Proof.lean ====
/-
  The certificate of the two-layer graph convolution: the Pallas program against its jnp reference, on the extended
  reals.

  Both programs form the same edge sources, destinations and weights from the edge list and aggregate with the same
  gathers and scatter-adds; they differ in how the three dense steps are computed.  The kernel program runs them as three
  pipelined kernels over ten blocks of ten thousand rows: a matrix product into a zero accumulator plus the bias row;
  the same after the maximum with zero; and, row by row, the shifted log-softmax.  The reference runs a `dot_general`
  plus a broadcast bias, a maximum with a broadcast zero, and the same shifted log-softmax over the whole array.  Read
  index by index at the ideal values, each kernel's blocks are the rows of one whole-array function (`lin`,
  `reluLin`, `logSoftmax` of the specification), the blocks cover the array, and the reference's steps are the same
  functions.  A change of float format on the way into a product is the identity on the extended reals, and a sum of
  products does not depend on the order it is taken in; no law that needs finite entries is used, so the
  precondition is never opened.  Hence both results are `out` of the six inputs.

  The three frames: the two kernel programs' are the frame module's; the reference's is its run (every buffer at the
  fold of its operations) read at the six arguments, which no operation writes.  The idealization rewrote nothing,
  so `preserves` is trivial.
-/
import proofs.«115427_j1846835937364_1_alg».proof.Defs
import proofs.«115427_j1846835937364_1_alg».proof.Proof.Gen.Kernel
import proofs.«115427_j1846835937364_1_alg».proof.Proof.Gen.Kernel.Skeleton
import proofs.«115427_j1846835937364_1_alg».proof.Proof.Gen.Kernel.Launch
import proofs.«115427_j1846835937364_1_alg».proof.Proof.Gen.Kernel.Points
import proofs.«115427_j1846835937364_1_alg».proof.Proof.Gen.Kernel.Frame
import proofs.«115427_j1846835937364_1_alg».proof.Proof.Gen.KernelIdeal
import proofs.«115427_j1846835937364_1_alg».proof.Proof.Gen.KernelIdeal.Skeleton
import proofs.«115427_j1846835937364_1_alg».proof.Proof.Gen.KernelIdeal.Launch
import proofs.«115427_j1846835937364_1_alg».proof.Proof.Gen.KernelIdeal.Points
import proofs.«115427_j1846835937364_1_alg».proof.Proof.Gen.KernelIdeal.Frame
import proofs.«115427_j1846835937364_1_alg».proof.Proof.Gen.ReferenceIdeal
import proofs.«115427_j1846835937364_1_alg».proof.Proof.Gen.Pre_finite_inputs
import proofs.«115427_j1846835937364_1_alg».proof.Proof.KRun
import proofs.«115427_j1846835937364_1_alg».proof.Proof.KValue
import proofs.«115427_j1846835937364_1_alg».proof.Proof.RefRun
import proofs.«115427_j1846835937364_1_alg».proof.Proof.RefValue
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's run leaves every buffer at the fold of its operations, and none of them writes an argument. -/
theorem frame_ri : Cert.frame_ReferenceIdeal := fun m ρ _ =>
  (θ_run Cert.ReferenceIdeal.defs _ _).mono
    (fun r h c => ⟨(h c _).trans (Cert.Gcn.ref_arg0 _), (h c _).trans (Cert.Gcn.ref_arg1 _), (h c _).trans (Cert.Gcn.ref_arg2 _),
      (h c _).trans (Cert.Gcn.ref_arg3 _), (h c _).trans (Cert.Gcn.ref_arg4 _), (h c _).trans (Cert.Gcn.ref_arg5 _)⟩)
    (Cert.ReferenceIdeal.ValueP.run_raw (F := Ideal) m ρ)

/-- The idealization rewrote no operation. -/
theorem preserves : Cert.preserves_Kernel_KernelIdeal := trivial

/-- From memories agreeing on the six inputs both programs end with the result buffer at `out` of those inputs. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.Gcn.kernel_value m ρ c), (h c).2⟩)
      (Cert.KernelIdeal.RunValue.run_out (F := Ideal) m ρ)
  · refine (θ_run Cert.ReferenceIdeal.defs _ _).mono
      (fun r h c => ⟨?_, (h c _).trans (Cert.Gcn.ref_arg0 _), (h c _).trans (Cert.Gcn.ref_arg1 _), (h c _).trans (Cert.Gcn.ref_arg2 _),
        (h c _).trans (Cert.Gcn.ref_arg3 _), (h c _).trans (Cert.Gcn.ref_arg4 _), (h c _).trans (Cert.Gcn.ref_arg5 _)⟩)
      (Cert.ReferenceIdeal.ValueP.run_raw (F := Ideal) m' ρ')
    obtain ⟨a0, a1, a2, a3, a4, a5⟩ := hagree c
    refine ((h c _).trans (Cert.Gcn.ref_value _)).trans ?_
    show Cert.Gcn.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [a0, a1, a2, a3, a4, a5]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
